-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1x2048x1024 : Shape := ⟨3, ![1, 2048, 1024]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x1024x64 : Shape := ⟨3, ![1, 1024, 64]⟩
abbrev S1024x64 : Shape := ⟨2, ![1024, 64]⟩
abbrev S512x1536 : Shape := ⟨2, ![512, 1536]⟩
abbrev S1x1536x64 : Shape := ⟨3, ![1, 1536, 64]⟩
abbrev S1536x64 : Shape := ⟨2, ![1536, 64]⟩
abbrev S512x2048 : Shape := ⟨2, ![512, 2048]⟩
abbrev S1x2048x64 : Shape := ⟨3, ![1, 2048, 64]⟩
abbrev S2048x64 : Shape := ⟨2, ![2048, 64]⟩

abbrev nBuf : Space → Nat
  | .hbm => 33
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S2x2048x1024, .bf16⟩
  | .hbm, ⟨26, _⟩ => ⟨S2x2048x1024, .bf16⟩
  | .hbm, ⟨27, _⟩ => ⟨S2x2048x1024, .bf16⟩
  | .hbm, ⟨28, _⟩ => ⟨S2x2048x1024, .bf16⟩
  | .hbm, ⟨29, _⟩ => ⟨S4096x1024, .bf16⟩
  | .hbm, ⟨30, _⟩ => ⟨S1x1024, .f32⟩
  | .hbm, ⟨31, _⟩ => ⟨S4096x1024, .f32⟩
  | .hbm, ⟨32, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  iota_S512x512_d0_w32 : S512x512.Iotas .tc 32 [0]
  iota_S512x512_d1_w32 : S512x512.Iotas .tc 32 [1]
  inb_S1x2048x1024_S1x512x64_0_0_0 : ∀ a, (![0, 0, 0] : Fin 3 → Nat) a + S1x512x64.size a ≤ S1x2048x1024.size a
  h_S1x512x64 : 0 < S1x512x64.numel
  shapeCasts_S1x512x64_S512x64 : S1x512x64.ShapeCasts S512x64
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x2048x1024_S1x512x64_0_0_0 : (Rect.unit (s := S1x2048x1024) ![0, 0, 0] S1x512x64.size inb_S1x2048x1024_S1x512x64_0_0_0).PackedRows (EltTy.packing .bf16)
  inb_S1x2048x1024_S1x512x64_0_0_64 : ∀ a, (![0, 0, 64] : Fin 3 → Nat) a + S1x512x64.size a ≤ S1x2048x1024.size a
  packedbf16_S1x2048x1024_S1x512x64_0_0_64 : (Rect.unit (s := S1x2048x1024) ![0, 0, 64] S1x512x64.size inb_S1x2048x1024_S1x512x64_0_0_64).PackedRows (EltTy.packing .bf16)
  inb_S1x2048x1024_S1x512x64_0_0_128 : ∀ a, (![0, 0, 128] : Fin 3 → Nat) a + S1x512x64.size a ≤ S1x2048x1024.size a
  packedbf16_S1x2048x1024_S1x512x64_0_0_128 : (Rect.unit (s := S1x2048x1024) ![0, 0, 128] S1x512x64.size inb_S1x2048x1024_S1x512x64_0_0_128).PackedRows (EltTy.packing .bf16)
  inb_S1x2048x1024_S1x512x64_0_0_192 : ∀ a, (![0, 0, 192] : Fin 3 → Nat) a + S1x512x64.size a ≤ S1x2048x1024.size a
  packedbf16_S1x2048x1024_S1x512x64_0_0_192 : (Rect.unit (s := S1x2048x1024) ![0, 0, 192] S1x512x64.size inb_S1x2048x1024_S1x512x64_0_0_192).PackedRows (EltTy.packing .bf16)
  inb_S1x2048x1024_S1x512x64_0_0_256 : ∀ a, (![0, 0, 256] : Fin 3 → Nat) a + S1x512x64.size a ≤ S1x2048x1024.size a
  packedbf16_S1x2048x1024_S1x512x64_0_0_256 : (Rect.unit (s := S1x2048x1024) ![0, 0, 256] S1x512x64.size inb_S1x2048x1024_S1x512x64_0_0_256).PackedRows (EltTy.packing .bf16)
  inb_S1x2048x1024_S1x512x64_0_0_320 : ∀ a, (![0, 0, 320] : Fin 3 → Nat) a + S1x512x64.size a ≤ S1x2048x1024.size a
  packedbf16_S1x2048x1024_S1x512x64_0_0_320 : (Rect.unit (s := S1x2048x1024) ![0, 0, 320] S1x512x64.size inb_S1x2048x1024_S1x512x64_0_0_320).PackedRows (EltTy.packing .bf16)
  inb_S1x2048x1024_S1x512x64_0_0_384 : ∀ a, (![0, 0, 384] : Fin 3 → Nat) a + S1x512x64.size a ≤ S1x2048x1024.size a
  packedbf16_S1x2048x1024_S1x512x64_0_0_384 : (Rect.unit (s := S1x2048x1024) ![0, 0, 384] S1x512x64.size inb_S1x2048x1024_S1x512x64_0_0_384).PackedRows (EltTy.packing .bf16)
  inb_S1x2048x1024_S1x512x64_0_0_448 : ∀ a, (![0, 0, 448] : Fin 3 → Nat) a + S1x512x64.size a ≤ S1x2048x1024.size a
  packedbf16_S1x2048x1024_S1x512x64_0_0_448 : (Rect.unit (s := S1x2048x1024) ![0, 0, 448] S1x512x64.size inb_S1x2048x1024_S1x512x64_0_0_448).PackedRows (EltTy.packing .bf16)
  inb_S1x2048x1024_S1x512x64_0_0_512 : ∀ a, (![0, 0, 512] : Fin 3 → Nat) a + S1x512x64.size a ≤ S1x2048x1024.size a
  packedbf16_S1x2048x1024_S1x512x64_0_0_512 : (Rect.unit (s := S1x2048x1024) ![0, 0, 512] S1x512x64.size inb_S1x2048x1024_S1x512x64_0_0_512).PackedRows (EltTy.packing .bf16)
  inb_S1x2048x1024_S1x512x64_0_0_576 : ∀ a, (![0, 0, 576] : Fin 3 → Nat) a + S1x512x64.size a ≤ S1x2048x1024.size a
  packedbf16_S1x2048x1024_S1x512x64_0_0_576 : (Rect.unit (s := S1x2048x1024) ![0, 0, 576] S1x512x64.size inb_S1x2048x1024_S1x512x64_0_0_576).PackedRows (EltTy.packing .bf16)
  inb_S1x2048x1024_S1x512x64_0_0_640 : ∀ a, (![0, 0, 640] : Fin 3 → Nat) a + S1x512x64.size a ≤ S1x2048x1024.size a
  packedbf16_S1x2048x1024_S1x512x64_0_0_640 : (Rect.unit (s := S1x2048x1024) ![0, 0, 640] S1x512x64.size inb_S1x2048x1024_S1x512x64_0_0_640).PackedRows (EltTy.packing .bf16)
  inb_S1x2048x1024_S1x512x64_0_0_704 : ∀ a, (![0, 0, 704] : Fin 3 → Nat) a + S1x512x64.size a ≤ S1x2048x1024.size a
  packedbf16_S1x2048x1024_S1x512x64_0_0_704 : (Rect.unit (s := S1x2048x1024) ![0, 0, 704] S1x512x64.size inb_S1x2048x1024_S1x512x64_0_0_704).PackedRows (EltTy.packing .bf16)
  inb_S1x2048x1024_S1x512x64_0_0_768 : ∀ a, (![0, 0, 768] : Fin 3 → Nat) a + S1x512x64.size a ≤ S1x2048x1024.size a
  packedbf16_S1x2048x1024_S1x512x64_0_0_768 : (Rect.unit (s := S1x2048x1024) ![0, 0, 768] S1x512x64.size inb_S1x2048x1024_S1x512x64_0_0_768).PackedRows (EltTy.packing .bf16)
  inb_S1x2048x1024_S1x512x64_0_0_832 : ∀ a, (![0, 0, 832] : Fin 3 → Nat) a + S1x512x64.size a ≤ S1x2048x1024.size a
  packedbf16_S1x2048x1024_S1x512x64_0_0_832 : (Rect.unit (s := S1x2048x1024) ![0, 0, 832] S1x512x64.size inb_S1x2048x1024_S1x512x64_0_0_832).PackedRows (EltTy.packing .bf16)
  inb_S1x2048x1024_S1x512x64_0_0_896 : ∀ a, (![0, 0, 896] : Fin 3 → Nat) a + S1x512x64.size a ≤ S1x2048x1024.size a
  packedbf16_S1x2048x1024_S1x512x64_0_0_896 : (Rect.unit (s := S1x2048x1024) ![0, 0, 896] S1x512x64.size inb_S1x2048x1024_S1x512x64_0_0_896).PackedRows (EltTy.packing .bf16)
  inb_S1x2048x1024_S1x512x64_0_0_960 : ∀ a, (![0, 0, 960] : Fin 3 → Nat) a + S1x512x64.size a ≤ S1x2048x1024.size a
  packedbf16_S1x2048x1024_S1x512x64_0_0_960 : (Rect.unit (s := S1x2048x1024) ![0, 0, 960] S1x512x64.size inb_S1x2048x1024_S1x512x64_0_0_960).PackedRows (EltTy.packing .bf16)
  iota_S512x1024_d0_w32 : S512x1024.Iotas .tc 32 [0]
  iota_S512x1024_d1_w32 : S512x1024.Iotas .tc 32 [1]
  inb_S1x2048x1024_S1x512x64_0_512_0 : ∀ a, (![0, 512, 0] : Fin 3 → Nat) a + S1x512x64.size a ≤ S1x2048x1024.size a
  inb_S1x2048x1024_S1x1024x64_0_0_0 : ∀ a, (![0, 0, 0] : Fin 3 → Nat) a + S1x1024x64.size a ≤ S1x2048x1024.size a
  h_S1x1024x64 : 0 < S1x1024x64.numel
  shapeCasts_S1x1024x64_S1024x64 : S1x1024x64.ShapeCasts S1024x64
  reduces_S512x1024_S512 : S512x1024.Reduces [1] S512
  broadcasts_S512x1_S512x1024 : S512x1.Broadcasts S512x1024
  packedbf16_S1x2048x1024_S1x512x64_0_512_0 : (Rect.unit (s := S1x2048x1024) ![0, 512, 0] S1x512x64.size inb_S1x2048x1024_S1x512x64_0_512_0).PackedRows (EltTy.packing .bf16)
  inb_S1x2048x1024_S1x512x64_0_512_64 : ∀ a, (![0, 512, 64] : Fin 3 → Nat) a + S1x512x64.size a ≤ S1x2048x1024.size a
  inb_S1x2048x1024_S1x1024x64_0_0_64 : ∀ a, (![0, 0, 64] : Fin 3 → Nat) a + S1x1024x64.size a ≤ S1x2048x1024.size a
  packedbf16_S1x2048x1024_S1x512x64_0_512_64 : (Rect.unit (s := S1x2048x1024) ![0, 512, 64] S1x512x64.size inb_S1x2048x1024_S1x512x64_0_512_64).PackedRows (EltTy.packing .bf16)
  inb_S1x2048x1024_S1x512x64_0_512_128 : ∀ a, (![0, 512, 128] : Fin 3 → Nat) a + S1x512x64.size a ≤ S1x2048x1024.size a
  inb_S1x2048x1024_S1x1024x64_0_0_128 : ∀ a, (![0, 0, 128] : Fin 3 → Nat) a + S1x1024x64.size a ≤ S1x2048x1024.size a
  packedbf16_S1x2048x1024_S1x512x64_0_512_128 : (Rect.unit (s := S1x2048x1024) ![0, 512, 128] S1x512x64.size inb_S1x2048x1024_S1x512x64_0_512_128).PackedRows (EltTy.packing .bf16)
  inb_S1x2048x1024_S1x512x64_0_512_192 : ∀ a, (![0, 512, 192] : Fin 3 → Nat) a + S1x512x64.size a ≤ S1x2048x1024.size a
  inb_S1x2048x1024_S1x1024x64_0_0_192 : ∀ a, (![0, 0, 192] : Fin 3 → Nat) a + S1x1024x64.size a ≤ S1x2048x1024.size a
  packedbf16_S1x2048x1024_S1x512x64_0_512_192 : (Rect.unit (s := S1x2048x1024) ![0, 512, 192] S1x512x64.size inb_S1x2048x1024_S1x512x64_0_512_192).PackedRows (EltTy.packing .bf16)
  inb_S1x2048x1024_S1x512x64_0_512_256 : ∀ a, (![0, 512, 256] : Fin 3 → Nat) a + S1x512x64.size a ≤ S1x2048x1024.size a
  inb_S1x2048x1024_S1x1024x64_0_0_256 : ∀ a, (![0, 0, 256] : Fin 3 → Nat) a + S1x1024x64.size a ≤ S1x2048x1024.size a
  packedbf16_S1x2048x1024_S1x512x64_0_512_256 : (Rect.unit (s := S1x2048x1024) ![0, 512, 256] S1x512x64.size inb_S1x2048x1024_S1x512x64_0_512_256).PackedRows (EltTy.packing .bf16)
  inb_S1x2048x1024_S1x512x64_0_512_320 : ∀ a, (![0, 512, 320] : Fin 3 → Nat) a + S1x512x64.size a ≤ S1x2048x1024.size a
  inb_S1x2048x1024_S1x1024x64_0_0_320 : ∀ a, (![0, 0, 320] : Fin 3 → Nat) a + S1x1024x64.size a ≤ S1x2048x1024.size a
  packedbf16_S1x2048x1024_S1x512x64_0_512_320 : (Rect.unit (s := S1x2048x1024) ![0, 512, 320] S1x512x64.size inb_S1x2048x1024_S1x512x64_0_512_320).PackedRows (EltTy.packing .bf16)
  inb_S1x2048x1024_S1x512x64_0_512_384 : ∀ a, (![0, 512, 384] : Fin 3 → Nat) a + S1x512x64.size a ≤ S1x2048x1024.size a
  inb_S1x2048x1024_S1x1024x64_0_0_384 : ∀ a, (![0, 0, 384] : Fin 3 → Nat) a + S1x1024x64.size a ≤ S1x2048x1024.size a
  packedbf16_S1x2048x1024_S1x512x64_0_512_384 : (Rect.unit (s := S1x2048x1024) ![0, 512, 384] S1x512x64.size inb_S1x2048x1024_S1x512x64_0_512_384).PackedRows (EltTy.packing .bf16)
  inb_S1x2048x1024_S1x512x64_0_512_448 : ∀ a, (![0, 512, 448] : Fin 3 → Nat) a + S1x512x64.size a ≤ S1x2048x1024.size a
  inb_S1x2048x1024_S1x1024x64_0_0_448 : ∀ a, (![0, 0, 448] : Fin 3 → Nat) a + S1x1024x64.size a ≤ S1x2048x1024.size a
  packedbf16_S1x2048x1024_S1x512x64_0_512_448 : (Rect.unit (s := S1x2048x1024) ![0, 512, 448] S1x512x64.size inb_S1x2048x1024_S1x512x64_0_512_448).PackedRows (EltTy.packing .bf16)
  inb_S1x2048x1024_S1x512x64_0_512_512 : ∀ a, (![0, 512, 512] : Fin 3 → Nat) a + S1x512x64.size a ≤ S1x2048x1024.size a
  inb_S1x2048x1024_S1x1024x64_0_0_512 : ∀ a, (![0, 0, 512] : Fin 3 → Nat) a + S1x1024x64.size a ≤ S1x2048x1024.size a
  packedbf16_S1x2048x1024_S1x512x64_0_512_512 : (Rect.unit (s := S1x2048x1024) ![0, 512, 512] S1x512x64.size inb_S1x2048x1024_S1x512x64_0_512_512).PackedRows (EltTy.packing .bf16)
  inb_S1x2048x1024_S1x512x64_0_512_576 : ∀ a, (![0, 512, 576] : Fin 3 → Nat) a + S1x512x64.size a ≤ S1x2048x1024.size a
  inb_S1x2048x1024_S1x1024x64_0_0_576 : ∀ a, (![0, 0, 576] : Fin 3 → Nat) a + S1x1024x64.size a ≤ S1x2048x1024.size a
  packedbf16_S1x2048x1024_S1x512x64_0_512_576 : (Rect.unit (s := S1x2048x1024) ![0, 512, 576] S1x512x64.size inb_S1x2048x1024_S1x512x64_0_512_576).PackedRows (EltTy.packing .bf16)
  inb_S1x2048x1024_S1x512x64_0_512_640 : ∀ a, (![0, 512, 640] : Fin 3 → Nat) a + S1x512x64.size a ≤ S1x2048x1024.size a
  inb_S1x2048x1024_S1x1024x64_0_0_640 : ∀ a, (![0, 0, 640] : Fin 3 → Nat) a + S1x1024x64.size a ≤ S1x2048x1024.size a
  packedbf16_S1x2048x1024_S1x512x64_0_512_640 : (Rect.unit (s := S1x2048x1024) ![0, 512, 640] S1x512x64.size inb_S1x2048x1024_S1x512x64_0_512_640).PackedRows (EltTy.packing .bf16)
  inb_S1x2048x1024_S1x512x64_0_512_704 : ∀ a, (![0, 512, 704] : Fin 3 → Nat) a + S1x512x64.size a ≤ S1x2048x1024.size a
  inb_S1x2048x1024_S1x1024x64_0_0_704 : ∀ a, (![0, 0, 704] : Fin 3 → Nat) a + S1x1024x64.size a ≤ S1x2048x1024.size a
  packedbf16_S1x2048x1024_S1x512x64_0_512_704 : (Rect.unit (s := S1x2048x1024) ![0, 512, 704] S1x512x64.size inb_S1x2048x1024_S1x512x64_0_512_704).PackedRows (EltTy.packing .bf16)
  inb_S1x2048x1024_S1x512x64_0_512_768 : ∀ a, (![0, 512, 768] : Fin 3 → Nat) a + S1x512x64.size a ≤ S1x2048x1024.size a
  inb_S1x2048x1024_S1x1024x64_0_0_768 : ∀ a, (![0, 0, 768] : Fin 3 → Nat) a + S1x1024x64.size a ≤ S1x2048x1024.size a
  packedbf16_S1x2048x1024_S1x512x64_0_512_768 : (Rect.unit (s := S1x2048x1024) ![0, 512, 768] S1x512x64.size inb_S1x2048x1024_S1x512x64_0_512_768).PackedRows (EltTy.packing .bf16)
  inb_S1x2048x1024_S1x512x64_0_512_832 : ∀ a, (![0, 512, 832] : Fin 3 → Nat) a + S1x512x64.size a ≤ S1x2048x1024.size a
  inb_S1x2048x1024_S1x1024x64_0_0_832 : ∀ a, (![0, 0, 832] : Fin 3 → Nat) a + S1x1024x64.size a ≤ S1x2048x1024.size a
  packedbf16_S1x2048x1024_S1x512x64_0_512_832 : (Rect.unit (s := S1x2048x1024) ![0, 512, 832] S1x512x64.size inb_S1x2048x1024_S1x512x64_0_512_832).PackedRows (EltTy.packing .bf16)
  inb_S1x2048x1024_S1x512x64_0_512_896 : ∀ a, (![0, 512, 896] : Fin 3 → Nat) a + S1x512x64.size a ≤ S1x2048x1024.size a
  inb_S1x2048x1024_S1x1024x64_0_0_896 : ∀ a, (![0, 0, 896] : Fin 3 → Nat) a + S1x1024x64.size a ≤ S1x2048x1024.size a
  packedbf16_S1x2048x1024_S1x512x64_0_512_896 : (Rect.unit (s := S1x2048x1024) ![0, 512, 896] S1x512x64.size inb_S1x2048x1024_S1x512x64_0_512_896).PackedRows (EltTy.packing .bf16)
  inb_S1x2048x1024_S1x512x64_0_512_960 : ∀ a, (![0, 512, 960] : Fin 3 → Nat) a + S1x512x64.size a ≤ S1x2048x1024.size a
  inb_S1x2048x1024_S1x1024x64_0_0_960 : ∀ a, (![0, 0, 960] : Fin 3 → Nat) a + S1x1024x64.size a ≤ S1x2048x1024.size a
  packedbf16_S1x2048x1024_S1x512x64_0_512_960 : (Rect.unit (s := S1x2048x1024) ![0, 512, 960] S1x512x64.size inb_S1x2048x1024_S1x512x64_0_512_960).PackedRows (EltTy.packing .bf16)
  iota_S512x1536_d0_w32 : S512x1536.Iotas .tc 32 [0]
  iota_S512x1536_d1_w32 : S512x1536.Iotas .tc 32 [1]
  inb_S1x2048x1024_S1x512x64_0_1024_0 : ∀ a, (![0, 1024, 0] : Fin 3 → Nat) a + S1x512x64.size a ≤ S1x2048x1024.size a
  inb_S1x2048x1024_S1x1536x64_0_0_0 : ∀ a, (![0, 0, 0] : Fin 3 → Nat) a + S1x1536x64.size a ≤ S1x2048x1024.size a
  h_S1x1536x64 : 0 < S1x1536x64.numel
  shapeCasts_S1x1536x64_S1536x64 : S1x1536x64.ShapeCasts S1536x64
  reduces_S512x1536_S512 : S512x1536.Reduces [1] S512
  broadcasts_S512x1_S512x1536 : S512x1.Broadcasts S512x1536
  packedbf16_S1x2048x1024_S1x512x64_0_1024_0 : (Rect.unit (s := S1x2048x1024) ![0, 1024, 0] S1x512x64.size inb_S1x2048x1024_S1x512x64_0_1024_0).PackedRows (EltTy.packing .bf16)
  inb_S1x2048x1024_S1x512x64_0_1024_64 : ∀ a, (![0, 1024, 64] : Fin 3 → Nat) a + S1x512x64.size a ≤ S1x2048x1024.size a
  inb_S1x2048x1024_S1x1536x64_0_0_64 : ∀ a, (![0, 0, 64] : Fin 3 → Nat) a + S1x1536x64.size a ≤ S1x2048x1024.size a
  packedbf16_S1x2048x1024_S1x512x64_0_1024_64 : (Rect.unit (s := S1x2048x1024) ![0, 1024, 64] S1x512x64.size inb_S1x2048x1024_S1x512x64_0_1024_64).PackedRows (EltTy.packing .bf16)
  inb_S1x2048x1024_S1x512x64_0_1024_128 : ∀ a, (![0, 1024, 128] : Fin 3 → Nat) a + S1x512x64.size a ≤ S1x2048x1024.size a
  inb_S1x2048x1024_S1x1536x64_0_0_128 : ∀ a, (![0, 0, 128] : Fin 3 → Nat) a + S1x1536x64.size a ≤ S1x2048x1024.size a
  packedbf16_S1x2048x1024_S1x512x64_0_1024_128 : (Rect.unit (s := S1x2048x1024) ![0, 1024, 128] S1x512x64.size inb_S1x2048x1024_S1x512x64_0_1024_128).PackedRows (EltTy.packing .bf16)
  inb_S1x2048x1024_S1x512x64_0_1024_192 : ∀ a, (![0, 1024, 192] : Fin 3 → Nat) a + S1x512x64.size a ≤ S1x2048x1024.size a
  inb_S1x2048x1024_S1x1536x64_0_0_192 : ∀ a, (![0, 0, 192] : Fin 3 → Nat) a + S1x1536x64.size a ≤ S1x2048x1024.size a
  packedbf16_S1x2048x1024_S1x512x64_0_1024_192 : (Rect.unit (s := S1x2048x1024) ![0, 1024, 192] S1x512x64.size inb_S1x2048x1024_S1x512x64_0_1024_192).PackedRows (EltTy.packing .bf16)
  inb_S1x2048x1024_S1x512x64_0_1024_256 : ∀ a, (![0, 1024, 256] : Fin 3 → Nat) a + S1x512x64.size a ≤ S1x2048x1024.size a
  inb_S1x2048x1024_S1x1536x64_0_0_256 : ∀ a, (![0, 0, 256] : Fin 3 → Nat) a + S1x1536x64.size a ≤ S1x2048x1024.size a
  packedbf16_S1x2048x1024_S1x512x64_0_1024_256 : (Rect.unit (s := S1x2048x1024) ![0, 1024, 256] S1x512x64.size inb_S1x2048x1024_S1x512x64_0_1024_256).PackedRows (EltTy.packing .bf16)
  inb_S1x2048x1024_S1x512x64_0_1024_320 : ∀ a, (![0, 1024, 320] : Fin 3 → Nat) a + S1x512x64.size a ≤ S1x2048x1024.size a
  inb_S1x2048x1024_S1x1536x64_0_0_320 : ∀ a, (![0, 0, 320] : Fin 3 → Nat) a + S1x1536x64.size a ≤ S1x2048x1024.size a
  packedbf16_S1x2048x1024_S1x512x64_0_1024_320 : (Rect.unit (s := S1x2048x1024) ![0, 1024, 320] S1x512x64.size inb_S1x2048x1024_S1x512x64_0_1024_320).PackedRows (EltTy.packing .bf16)
  inb_S1x2048x1024_S1x512x64_0_1024_384 : ∀ a, (![0, 1024, 384] : Fin 3 → Nat) a + S1x512x64.size a ≤ S1x2048x1024.size a
  inb_S1x2048x1024_S1x1536x64_0_0_384 : ∀ a, (![0, 0, 384] : Fin 3 → Nat) a + S1x1536x64.size a ≤ S1x2048x1024.size a
  packedbf16_S1x2048x1024_S1x512x64_0_1024_384 : (Rect.unit (s := S1x2048x1024) ![0, 1024, 384] S1x512x64.size inb_S1x2048x1024_S1x512x64_0_1024_384).PackedRows (EltTy.packing .bf16)
  inb_S1x2048x1024_S1x512x64_0_1024_448 : ∀ a, (![0, 1024, 448] : Fin 3 → Nat) a + S1x512x64.size a ≤ S1x2048x1024.size a
  inb_S1x2048x1024_S1x1536x64_0_0_448 : ∀ a, (![0, 0, 448] : Fin 3 → Nat) a + S1x1536x64.size a ≤ S1x2048x1024.size a
  packedbf16_S1x2048x1024_S1x512x64_0_1024_448 : (Rect.unit (s := S1x2048x1024) ![0, 1024, 448] S1x512x64.size inb_S1x2048x1024_S1x512x64_0_1024_448).PackedRows (EltTy.packing .bf16)
  inb_S1x2048x1024_S1x512x64_0_1024_512 : ∀ a, (![0, 1024, 512] : Fin 3 → Nat) a + S1x512x64.size a ≤ S1x2048x1024.size a
  inb_S1x2048x1024_S1x1536x64_0_0_512 : ∀ a, (![0, 0, 512] : Fin 3 → Nat) a + S1x1536x64.size a ≤ S1x2048x1024.size a
  packedbf16_S1x2048x1024_S1x512x64_0_1024_512 : (Rect.unit (s := S1x2048x1024) ![0, 1024, 512] S1x512x64.size inb_S1x2048x1024_S1x512x64_0_1024_512).PackedRows (EltTy.packing .bf16)
  inb_S1x2048x1024_S1x512x64_0_1024_576 : ∀ a, (![0, 1024, 576] : Fin 3 → Nat) a + S1x512x64.size a ≤ S1x2048x1024.size a
  inb_S1x2048x1024_S1x1536x64_0_0_576 : ∀ a, (![0, 0, 576] : Fin 3 → Nat) a + S1x1536x64.size a ≤ S1x2048x1024.size a
  packedbf16_S1x2048x1024_S1x512x64_0_1024_576 : (Rect.unit (s := S1x2048x1024) ![0, 1024, 576] S1x512x64.size inb_S1x2048x1024_S1x512x64_0_1024_576).PackedRows (EltTy.packing .bf16)
  inb_S1x2048x1024_S1x512x64_0_1024_640 : ∀ a, (![0, 1024, 640] : Fin 3 → Nat) a + S1x512x64.size a ≤ S1x2048x1024.size a
  inb_S1x2048x1024_S1x1536x64_0_0_640 : ∀ a, (![0, 0, 640] : Fin 3 → Nat) a + S1x1536x64.size a ≤ S1x2048x1024.size a
  packedbf16_S1x2048x1024_S1x512x64_0_1024_640 : (Rect.unit (s := S1x2048x1024) ![0, 1024, 640] S1x512x64.size inb_S1x2048x1024_S1x512x64_0_1024_640).PackedRows (EltTy.packing .bf16)
  inb_S1x2048x1024_S1x512x64_0_1024_704 : ∀ a, (![0, 1024, 704] : Fin 3 → Nat) a + S1x512x64.size a ≤ S1x2048x1024.size a
  inb_S1x2048x1024_S1x1536x64_0_0_704 : ∀ a, (![0, 0, 704] : Fin 3 → Nat) a + S1x1536x64.size a ≤ S1x2048x1024.size a
  packedbf16_S1x2048x1024_S1x512x64_0_1024_704 : (Rect.unit (s := S1x2048x1024) ![0, 1024, 704] S1x512x64.size inb_S1x2048x1024_S1x512x64_0_1024_704).PackedRows (EltTy.packing .bf16)
  inb_S1x2048x1024_S1x512x64_0_1024_768 : ∀ a, (![0, 1024, 768] : Fin 3 → Nat) a + S1x512x64.size a ≤ S1x2048x1024.size a
  inb_S1x2048x1024_S1x1536x64_0_0_768 : ∀ a, (![0, 0, 768] : Fin 3 → Nat) a + S1x1536x64.size a ≤ S1x2048x1024.size a
  packedbf16_S1x2048x1024_S1x512x64_0_1024_768 : (Rect.unit (s := S1x2048x1024) ![0, 1024, 768] S1x512x64.size inb_S1x2048x1024_S1x512x64_0_1024_768).PackedRows (EltTy.packing .bf16)
  inb_S1x2048x1024_S1x512x64_0_1024_832 : ∀ a, (![0, 1024, 832] : Fin 3 → Nat) a + S1x512x64.size a ≤ S1x2048x1024.size a
  inb_S1x2048x1024_S1x1536x64_0_0_832 : ∀ a, (![0, 0, 832] : Fin 3 → Nat) a + S1x1536x64.size a ≤ S1x2048x1024.size a
  packedbf16_S1x2048x1024_S1x512x64_0_1024_832 : (Rect.unit (s := S1x2048x1024) ![0, 1024, 832] S1x512x64.size inb_S1x2048x1024_S1x512x64_0_1024_832).PackedRows (EltTy.packing .bf16)
  inb_S1x2048x1024_S1x512x64_0_1024_896 : ∀ a, (![0, 1024, 896] : Fin 3 → Nat) a + S1x512x64.size a ≤ S1x2048x1024.size a
  inb_S1x2048x1024_S1x1536x64_0_0_896 : ∀ a, (![0, 0, 896] : Fin 3 → Nat) a + S1x1536x64.size a ≤ S1x2048x1024.size a
  packedbf16_S1x2048x1024_S1x512x64_0_1024_896 : (Rect.unit (s := S1x2048x1024) ![0, 1024, 896] S1x512x64.size inb_S1x2048x1024_S1x512x64_0_1024_896).PackedRows (EltTy.packing .bf16)
  inb_S1x2048x1024_S1x512x64_0_1024_960 : ∀ a, (![0, 1024, 960] : Fin 3 → Nat) a + S1x512x64.size a ≤ S1x2048x1024.size a
  inb_S1x2048x1024_S1x1536x64_0_0_960 : ∀ a, (![0, 0, 960] : Fin 3 → Nat) a + S1x1536x64.size a ≤ S1x2048x1024.size a
  packedbf16_S1x2048x1024_S1x512x64_0_1024_960 : (Rect.unit (s := S1x2048x1024) ![0, 1024, 960] S1x512x64.size inb_S1x2048x1024_S1x512x64_0_1024_960).PackedRows (EltTy.packing .bf16)
  iota_S512x2048_d0_w32 : S512x2048.Iotas .tc 32 [0]
  iota_S512x2048_d1_w32 : S512x2048.Iotas .tc 32 [1]
  inb_S1x2048x1024_S1x512x64_0_1536_0 : ∀ a, (![0, 1536, 0] : Fin 3 → Nat) a + S1x512x64.size a ≤ S1x2048x1024.size a
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S512x2048_S512 : S512x2048.Reduces [1] S512
  broadcasts_S512x1_S512x2048 : S512x1.Broadcasts S512x2048
  packedbf16_S1x2048x1024_S1x512x64_0_1536_0 : (Rect.unit (s := S1x2048x1024) ![0, 1536, 0] S1x512x64.size inb_S1x2048x1024_S1x512x64_0_1536_0).PackedRows (EltTy.packing .bf16)
  inb_S1x2048x1024_S1x512x64_0_1536_64 : ∀ a, (![0, 1536, 64] : Fin 3 → Nat) a + S1x512x64.size a ≤ S1x2048x1024.size a
  inb_S1x2048x1024_S1x2048x64_0_0_64 : ∀ a, (![0, 0, 64] : Fin 3 → Nat) a + S1x2048x64.size a ≤ S1x2048x1024.size a
  packedbf16_S1x2048x1024_S1x512x64_0_1536_64 : (Rect.unit (s := S1x2048x1024) ![0, 1536, 64] S1x512x64.size inb_S1x2048x1024_S1x512x64_0_1536_64).PackedRows (EltTy.packing .bf16)
  inb_S1x2048x1024_S1x512x64_0_1536_128 : ∀ a, (![0, 1536, 128] : Fin 3 → Nat) a + S1x512x64.size a ≤ S1x2048x1024.size a
  inb_S1x2048x1024_S1x2048x64_0_0_128 : ∀ a, (![0, 0, 128] : Fin 3 → Nat) a + S1x2048x64.size a ≤ S1x2048x1024.size a
  packedbf16_S1x2048x1024_S1x512x64_0_1536_128 : (Rect.unit (s := S1x2048x1024) ![0, 1536, 128] S1x512x64.size inb_S1x2048x1024_S1x512x64_0_1536_128).PackedRows (EltTy.packing .bf16)
  inb_S1x2048x1024_S1x512x64_0_1536_192 : ∀ a, (![0, 1536, 192] : Fin 3 → Nat) a + S1x512x64.size a ≤ S1x2048x1024.size a
  inb_S1x2048x1024_S1x2048x64_0_0_192 : ∀ a, (![0, 0, 192] : Fin 3 → Nat) a + S1x2048x64.size a ≤ S1x2048x1024.size a
  packedbf16_S1x2048x1024_S1x512x64_0_1536_192 : (Rect.unit (s := S1x2048x1024) ![0, 1536, 192] S1x512x64.size inb_S1x2048x1024_S1x512x64_0_1536_192).PackedRows (EltTy.packing .bf16)
  inb_S1x2048x1024_S1x512x64_0_1536_256 : ∀ a, (![0, 1536, 256] : Fin 3 → Nat) a + S1x512x64.size a ≤ S1x2048x1024.size a
  inb_S1x2048x1024_S1x2048x64_0_0_256 : ∀ a, (![0, 0, 256] : Fin 3 → Nat) a + S1x2048x64.size a ≤ S1x2048x1024.size a
  packedbf16_S1x2048x1024_S1x512x64_0_1536_256 : (Rect.unit (s := S1x2048x1024) ![0, 1536, 256] S1x512x64.size inb_S1x2048x1024_S1x512x64_0_1536_256).PackedRows (EltTy.packing .bf16)
  inb_S1x2048x1024_S1x512x64_0_1536_320 : ∀ a, (![0, 1536, 320] : Fin 3 → Nat) a + S1x512x64.size a ≤ S1x2048x1024.size a
  inb_S1x2048x1024_S1x2048x64_0_0_320 : ∀ a, (![0, 0, 320] : Fin 3 → Nat) a + S1x2048x64.size a ≤ S1x2048x1024.size a
  packedbf16_S1x2048x1024_S1x512x64_0_1536_320 : (Rect.unit (s := S1x2048x1024) ![0, 1536, 320] S1x512x64.size inb_S1x2048x1024_S1x512x64_0_1536_320).PackedRows (EltTy.packing .bf16)
  inb_S1x2048x1024_S1x512x64_0_1536_384 : ∀ a, (![0, 1536, 384] : Fin 3 → Nat) a + S1x512x64.size a ≤ S1x2048x1024.size a
  inb_S1x2048x1024_S1x2048x64_0_0_384 : ∀ a, (![0, 0, 384] : Fin 3 → Nat) a + S1x2048x64.size a ≤ S1x2048x1024.size a
  packedbf16_S1x2048x1024_S1x512x64_0_1536_384 : (Rect.unit (s := S1x2048x1024) ![0, 1536, 384] S1x512x64.size inb_S1x2048x1024_S1x512x64_0_1536_384).PackedRows (EltTy.packing .bf16)
  inb_S1x2048x1024_S1x512x64_0_1536_448 : ∀ a, (![0, 1536, 448] : Fin 3 → Nat) a + S1x512x64.size a ≤ S1x2048x1024.size a
  inb_S1x2048x1024_S1x2048x64_0_0_448 : ∀ a, (![0, 0, 448] : Fin 3 → Nat) a + S1x2048x64.size a ≤ S1x2048x1024.size a
  packedbf16_S1x2048x1024_S1x512x64_0_1536_448 : (Rect.unit (s := S1x2048x1024) ![0, 1536, 448] S1x512x64.size inb_S1x2048x1024_S1x512x64_0_1536_448).PackedRows (EltTy.packing .bf16)
  inb_S1x2048x1024_S1x512x64_0_1536_512 : ∀ a, (![0, 1536, 512] : Fin 3 → Nat) a + S1x512x64.size a ≤ S1x2048x1024.size a
  inb_S1x2048x1024_S1x2048x64_0_0_512 : ∀ a, (![0, 0, 512] : Fin 3 → Nat) a + S1x2048x64.size a ≤ S1x2048x1024.size a
  packedbf16_S1x2048x1024_S1x512x64_0_1536_512 : (Rect.unit (s := S1x2048x1024) ![0, 1536, 512] S1x512x64.size inb_S1x2048x1024_S1x512x64_0_1536_512).PackedRows (EltTy.packing .bf16)
  inb_S1x2048x1024_S1x512x64_0_1536_576 : ∀ a, (![0, 1536, 576] : Fin 3 → Nat) a + S1x512x64.size a ≤ S1x2048x1024.size a
  inb_S1x2048x1024_S1x2048x64_0_0_576 : ∀ a, (![0, 0, 576] : Fin 3 → Nat) a + S1x2048x64.size a ≤ S1x2048x1024.size a
  packedbf16_S1x2048x1024_S1x512x64_0_1536_576 : (Rect.unit (s := S1x2048x1024) ![0, 1536, 576] S1x512x64.size inb_S1x2048x1024_S1x512x64_0_1536_576).PackedRows (EltTy.packing .bf16)
  inb_S1x2048x1024_S1x512x64_0_1536_640 : ∀ a, (![0, 1536, 640] : Fin 3 → Nat) a + S1x512x64.size a ≤ S1x2048x1024.size a
  inb_S1x2048x1024_S1x2048x64_0_0_640 : ∀ a, (![0, 0, 640] : Fin 3 → Nat) a + S1x2048x64.size a ≤ S1x2048x1024.size a
  packedbf16_S1x2048x1024_S1x512x64_0_1536_640 : (Rect.unit (s := S1x2048x1024) ![0, 1536, 640] S1x512x64.size inb_S1x2048x1024_S1x512x64_0_1536_640).PackedRows (EltTy.packing .bf16)
  inb_S1x2048x1024_S1x512x64_0_1536_704 : ∀ a, (![0, 1536, 704] : Fin 3 → Nat) a + S1x512x64.size a ≤ S1x2048x1024.size a
  inb_S1x2048x1024_S1x2048x64_0_0_704 : ∀ a, (![0, 0, 704] : Fin 3 → Nat) a + S1x2048x64.size a ≤ S1x2048x1024.size a
  packedbf16_S1x2048x1024_S1x512x64_0_1536_704 : (Rect.unit (s := S1x2048x1024) ![0, 1536, 704] S1x512x64.size inb_S1x2048x1024_S1x512x64_0_1536_704).PackedRows (EltTy.packing .bf16)
  inb_S1x2048x1024_S1x512x64_0_1536_768 : ∀ a, (![0, 1536, 768] : Fin 3 → Nat) a + S1x512x64.size a ≤ S1x2048x1024.size a
  inb_S1x2048x1024_S1x2048x64_0_0_768 : ∀ a, (![0, 0, 768] : Fin 3 → Nat) a + S1x2048x64.size a ≤ S1x2048x1024.size a
  packedbf16_S1x2048x1024_S1x512x64_0_1536_768 : (Rect.unit (s := S1x2048x1024) ![0, 1536, 768] S1x512x64.size inb_S1x2048x1024_S1x512x64_0_1536_768).PackedRows (EltTy.packing .bf16)
  inb_S1x2048x1024_S1x512x64_0_1536_832 : ∀ a, (![0, 1536, 832] : Fin 3 → Nat) a + S1x512x64.size a ≤ S1x2048x1024.size a
  inb_S1x2048x1024_S1x2048x64_0_0_832 : ∀ a, (![0, 0, 832] : Fin 3 → Nat) a + S1x2048x64.size a ≤ S1x2048x1024.size a
  packedbf16_S1x2048x1024_S1x512x64_0_1536_832 : (Rect.unit (s := S1x2048x1024) ![0, 1536, 832] S1x512x64.size inb_S1x2048x1024_S1x512x64_0_1536_832).PackedRows (EltTy.packing .bf16)
  inb_S1x2048x1024_S1x512x64_0_1536_896 : ∀ a, (![0, 1536, 896] : Fin 3 → Nat) a + S1x512x64.size a ≤ S1x2048x1024.size a
  inb_S1x2048x1024_S1x2048x64_0_0_896 : ∀ a, (![0, 0, 896] : Fin 3 → Nat) a + S1x2048x64.size a ≤ S1x2048x1024.size a
  packedbf16_S1x2048x1024_S1x512x64_0_1536_896 : (Rect.unit (s := S1x2048x1024) ![0, 1536, 896] S1x512x64.size inb_S1x2048x1024_S1x512x64_0_1536_896).PackedRows (EltTy.packing .bf16)
  inb_S1x2048x1024_S1x512x64_0_1536_960 : ∀ a, (![0, 1536, 960] : Fin 3 → Nat) a + S1x512x64.size a ≤ S1x2048x1024.size a
  inb_S1x2048x1024_S1x2048x64_0_0_960 : ∀ a, (![0, 0, 960] : Fin 3 → Nat) a + S1x2048x64.size a ≤ S1x2048x1024.size a
  packedbf16_S1x2048x1024_S1x512x64_0_1536_960 : (Rect.unit (s := S1x2048x1024) ![0, 1536, 960] S1x512x64.size inb_S1x2048x1024_S1x512x64_0_1536_960).PackedRows (EltTy.packing .bf16)
  dot_S512x1024_S1024x1024_S512x1024_1_0_0_1_n_n_wf : DotDims.WF S512x1024 S1024x1024 S512x1024 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  dot_S512x64_S1536x64_S512x1536_1_1_0_0_n_n_wf : DotDims.WF S512x64 S1536x64 S512x1536 [1] [1] [0] [0] [] []
  dot_S512x1536_S1536x64_S512x64_1_0_0_1_n_n_wf : DotDims.WF S512x1536 S1536x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S2x2048x1024.size a
  hwx1_0 : ∀ i : grid1.Coords, EltTy.bits .bf16 = 32 ∨ (Rect.block (s := S2x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .bf16 = 32 ∨ (Rect.block (s := S2x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x1024.size a
  hwx1_2 : ∀ i : grid1.Coords, EltTy.bits .bf16 = 32 ∨ (Rect.block (s := S2x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S2x2048x1024.size a
  hwx1_3 : ∀ i : grid1.Coords, EltTy.bits .bf16 = 32 ∨ (Rect.block (s := S2x2048x1024) S1x2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S1536x64_S512x1536_1_1_0_0_n_n : DotDims S512x64 S1536x64 S512x1536 where
  lhsContracting := [1]
  rhsContracting := [1]
  lhsNonContracting := [0]
  rhsNonContracting := [0]
  lhsBatch := []
  rhsBatch := []
  wf := dot_S512x64_S1536x64_S512x1536_1_1_0_0_n_n_wf
def dot_S512x1536_S1536x64_S512x64_1_0_0_1_n_n : DotDims S512x1536 S1536x64 S512x64 where
  lhsContracting := [1]
  rhsContracting := [0]
  lhsNonContracting := [0]
  rhsNonContracting := [1]
  lhsBatch := []
  rhsBatch := []
  wf := dot_S512x1536_S1536x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .i1⟩
  | .hbm, ⟨32, _⟩ => ⟨S2048x2048, .i1⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .i1⟩
  | .hbm, ⟨40, _⟩ => ⟨S2048x2048, .i1⟩
  | .hbm, ⟨41, _⟩ => ⟨S2048x2048, .i1⟩
  | .hbm, ⟨42, _⟩ => ⟨S1x1x2048x2048, .i1⟩
  | .hbm, ⟨43, _⟩ => ⟨S_, .f32⟩
  | .hbm, ⟨44, _⟩ => ⟨S_, .f32⟩
  | .hbm, ⟨45, _⟩ => ⟨S2x16x2048x2048, .i1⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x64, .f32⟩
  | .hbm, ⟨63, _⟩ => ⟨S2x2048x16x64, .f32⟩
  | .hbm, ⟨64, _⟩ => ⟨S2x2048x1024, .f32⟩
  | .hbm, ⟨65, _⟩ => ⟨S2x2048x1024, .f32⟩
  | .hbm, ⟨66, _⟩ => ⟨S1x1x1024, .f32⟩
  | .hbm, ⟨67, _⟩ => ⟨S2x2048x1024, .f32⟩
  | .hbm, ⟨68, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_0 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result named. The program is three kernel regions among stretches of host
  operations; the contents of every buffer at each boundary are a fold from the launch memory (`Gen.W0` … `Gen.W7`:
  a stretch applies its host operations, a region replaces its windows' arrays by what its write-backs leave).
  Every weakly fair execution terminates without a fault with every unscoped buffer at the last boundary's contents
  `Gen.W7`; read at the result buffer and at the nine argument buffers this is the statement below.
-/
import proofs.«129124_j25151328485592_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.Region2.lean ====
/-
  The output projection region read as a function. The region runs over eight row tiles of 512; at tile `t` the
  body multiplies the tile's rows of the activations [4096, 1024] by the whole transposed weight [1024, 1024]
  (contracting the 1024 input columns), adds the bias row [1, 1024] to every row, and writes the tile back. So the
  array after the region is, at row `r` and column `e`, `Σ_k a[r, k] · w[k, e] + β[0, e]` of the arrays the
  region found.
-/
import proofs.«129124_j25151328485592_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## A row tile times the whole weight plus the bias row -/

theorem lhs0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs1 (j : S512x1024.Idx) (q : dot_S512x1024_S1024x1024_S512x1024_1_0_0_1_n_n.contr.Idx) : (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs0 (j : S512x1024.Idx) (q : dot_S512x1024_S1024x1024_S512x1024_1_0_0_1_n_n.contr.Idx) : (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The tile's matrix product at row `r`, column `e`: the sum over the 1024 contracted columns. -/
theorem tile_matmul (a : FVec Ideal S512x1024 .bf16) (w : FVec Ideal S1024x1024 .bf16) (r : Fin 512) (e : Fin 1024) :
    matmul dot_S512x1024_S1024x1024_S512x1024_1_0_0_1_n_n none a w (constant S512x1024 .f32 0x00000000#32) (ix2 r e) = ∑ k : Fin 1024, a (ix2 r k) * w (ix2 k e) := by
  refine (Ideal.matmul_constant_zero_apply dot_S512x1024_S1024x1024_S512x1024_1_0_0_1_n_n none a w (ix2 r e)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun x => Fin.ext (by
    match x with
    | ⟨0, _⟩ => exact lhs0 _ _
    | ⟨1, _⟩ => exact (lhs1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun x => Fin.ext (by
    match x with
    | ⟨0, _⟩ => exact (rhs0 _ _).trans hk
    | ⟨1, _⟩ => exact rhs1 _ _)
  rw [el, er]

/-- The bias row spread over the tile's rows, at row `r`, column `e`. -/
theorem bias_row (β : FVec Ideal S1x1024 .f32) (r : Fin 512) (e : Fin 1024) :
    broadcastTo S512x1024 β broadcasts_S1x1024_S512x1024 (ix2 r e) = β (ix2 0 e) := by
  refine broadcastTo_apply β broadcasts_S1x1024_S512x1024 (ix2 r e) (ix2 0 e) fun x => ?_
  match x with
  | ⟨0, _⟩ => rfl
  | ⟨1, _⟩ => rfl

/-- The body's stored value at row `r` and column `e` of the tile. -/
theorem tile_apply (a : FVec Ideal S512x1024 .bf16) (w : FVec Ideal S1024x1024 .bf16) (β : FVec Ideal S1x1024 .f32)
    (r : Fin 512) (e : Fin 1024) :
    k2_pay1 (F := Ideal) a w β (ix2 r e) = (∑ k : Fin 1024, a (ix2 r k) * w (ix2 k e)) + β (ix2 0 e) := by
  unfold k2_pay1
  rw [shapeCast_self, shapeCast_self, shapeCast_self]
  exact congrArg₂ (· + ·) (tile_matmul a w r e) (bias_row β r e)

/-! ## The array after the region -/

/-- Row `i 0`, column `k` of the activations. -/
abbrev aIdx (i : S4096x1024.Idx) (k : Fin 1024) : S4096x1024.Idx := fun x => match x with
  | ⟨0, _⟩ => ⟨(i 0).val, (i 0).isLt⟩
  | ⟨1, _⟩ => ⟨k.val, k.isLt⟩
/-- Row `k`, column `i 1` of the transposed weight. -/
abbrev wIdx (i : S4096x1024.Idx) (k : Fin 1024) : S1024x1024.Idx := fun x => match x with
  | ⟨0, _⟩ => ⟨k.val, k.isLt⟩
  | ⟨1, _⟩ => ⟨(i 1).val, (i 1).isLt⟩
/-- Column `i 1` of the bias row. -/
abbrev bIdx (i : S4096x1024.Idx) : S1x1024.Idx := fun x => match x with
  | ⟨0, _⟩ => ⟨0, Nat.zero_lt_one⟩
  | ⟨1, _⟩ => ⟨(i 1).val, (i 1).isLt⟩

/-- `Σ_k a[r, k] · w[k, e] + β[0, e]`. -/
def G (a : S4096x1024.Idx → EReal) (w : S1024x1024.Idx → EReal) (β : S1x1024.Idx → EReal) : S4096x1024.Idx → EReal :=
  fun i => (∑ k : Fin 1024, a (aIdx i k) * w (wIdx i k)) + β (bIdx i)

theorem hz : (![0, 0] : Fin 2 → Nat) = fun _ => 0 := funext fun a => by fin_cases a <;> rfl

/-- The windows' block positions at tile `t`: the activations and the output move together down the rows; the
    weight and the bias stay put. -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 :=
  (by decide +kernel : ∀ t : Fin grid2.N, _)

/-- Every row tile is some point's. -/
theorem idx_onto : ∀ q0 : Fin 8, ∃ t : Fin cfg2.N, win2_3.index t = ![q0.val, 0] :=
  (by decide +kernel : ∀ q0 : Fin 8, ∃ t : Fin grid2.N, win2_3.index t = ![q0.val, 0])

variable (V : (c : Dev nD) → (b : Ref sig .tc) → Buf (Elt Ideal) ((c : Thread nD τ).loc b))

/-- What tile `t` writes back is tile `t` of `G` of the arrays the region found. -/
theorem flushed_eq (c : Dev nD) (t : Fin cfg2.N) :
    (dat2 V c).flushed 3 t = ((cfg2.win 3).blk t).view.read (Elt Ideal) (G (V c main_v18) (V c main_v9) (V c main_v19)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts t
  funext j
  obtain ⟨r, e, rfl⟩ : ∃ (r : Fin 512) (e : Fin 1024), j = ix2 r e := ⟨j 0, j 1, eq_ix2 j⟩
  show k2_pay1 (F := Ideal) (iblk2 V c 0 t) (iblk2 V c 1 t) (iblk2 V c 2 t) (ix2 r e)
    = G (V c main_v18) (V c main_v9) (V c main_v19) (((cfg2.win 3).blk t).view.emb (ix2 r e))
  rw [tile_apply]
  unfold G
  refine congrArg₂ (· + ·) (Finset.sum_congr rfl fun k _ => congrArg₂ (· * ·) ?_ ?_) ?_
  · show V c main_v18 (((cfg2.win 0).blk t).view.emb (ix2 r k)) = V c main_v18 (aIdx (((cfg2.win 3).blk t).view.emb (ix2 r e)) k)
    refine congrArg (V c main_v18) (funext fun x => Fin.ext ?_)
    match x with
    | ⟨0, _⟩ => show win2_0.index t (0 : Fin 2) * 512 + 1 * r.val = win2_3.index t (0 : Fin 2) * 512 + 1 * r.val; omega
    | ⟨1, _⟩ => show win2_0.index t (1 : Fin 2) * 1024 + 1 * k.val = k.val; omega
  · show V c main_v9 (((cfg2.win 1).blk t).view.emb (ix2 k e)) = V c main_v9 (wIdx (((cfg2.win 3).blk t).view.emb (ix2 r e)) k)
    refine congrArg (V c main_v9) (funext fun x => Fin.ext ?_)
    match x with
    | ⟨0, _⟩ => show win2_1.index t (0 : Fin 2) * 1024 + 1 * k.val = k.val; omega
    | ⟨1, _⟩ => show win2_1.index t (1 : Fin 2) * 1024 + 1 * e.val = win2_3.index t (1 : Fin 2) * 1024 + 1 * e.val; omega
  · show V c main_v19 (((cfg2.win 2).blk t).view.emb (ix2 0 e)) = V c main_v19 (bIdx (((cfg2.win 3).blk t).view.emb (ix2 r e)))
    refine congrArg (V c main_v19) (funext fun x => Fin.ext ?_)
    match x with
    | ⟨0, _⟩ => show win2_2.index t (0 : Fin 2) * 1 + 1 * 0 = 0; omega
    | ⟨1, _⟩ => show win2_2.index t (1 : Fin 2) * 1024 + 1 * e.val = win2_3.index t (1 : Fin 2) * 1024 + 1 * e.val; omega

/-- An index of the array is in tile `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v20).slice (win2_3.rect t)).set ↔ _
  rw [View.set_slice_whole, Rect.mem_set_unit]
  exact Iff.rfl

/-- The eight row tiles cover the array. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array after the region. -/
theorem final (c : Dev nD) : (dat2 V c).arrAt 3 cfg2.N = G (V c main_v18) (V c main_v9) (V c main_v19) :=
  (dat2 V c).arrAt_eq_of_cover 3 (G (V c main_v18) (V c main_v9) (V c main_v19)) (fun t _ => flushed_eq V c t) cover

end Cert.KernelIdeal.Region2

end
-- ==== Proof.Region0.lean ====
/-
  The fused query / key / value projection region read as three functions. The region runs over eight row tiles of
  512; at tile `t` the body multiplies the tile's rows of the flattened input [4096, 1024] by each of the three whole
  transposed weights [1024, 1024], adds that projection's bias row to every row, scales the query projection alone
  by the f32 word of 0.125, and writes the three tiles back. So each output array is, at row `r` and column `e`,
  `Σ_k a[r, k] · w[k, e] + β[0, e]` of the arrays the region found, the query one times that word.
-/
import proofs.«129124_j25151328485592_2_alg».proof.Proof.Region2

set_option maxRecDepth 16384

noncomputable section

open scoped BigOperators

namespace Cert.KernelIdeal.Region0

open Cert.KernelIdeal Cert.KernelIdeal.Gen Cert.KernelIdeal.Region2
open Idealize.ShloMosaic Idealize.ShloMosaic.TcCoe Idealize.ShloMosaic.ValueIdx Idealize.SL.Sem
open Idealize.ShloMosaic.Pipeline (Dat Cfg Window)

/-! ## The three stored values at row `r` and column `e` of the tile -/

theorem k0_pay2_apply (a : FVec Ideal S512x1024 .bf16) (w : FVec Ideal S1024x1024 .bf16) (β : FVec Ideal S1x1024 .f32)
    (r : Fin 512) (e : Fin 1024) :
    k0_pay2 (F := Ideal) a w β (ix2 r e)
      = ((∑ k : Fin 1024, a (ix2 r k) * w (ix2 k e)) + β (ix2 0 e)) * Ideal.ofBits .f32 0x3E000000#32 := by
  unfold k0_pay2 k0_pay1
  rw [shapeCast_self, shapeCast_self, shapeCast_self]
  exact congrArg (· * Ideal.ofBits .f32 0x3E000000#32) (congrArg₂ (· + ·) (tile_matmul a w r e) (bias_row β r e))

theorem k0_pay3_apply (a : FVec Ideal S512x1024 .bf16) (w : FVec Ideal S1024x1024 .bf16) (β : FVec Ideal S1x1024 .f32)
    (r : Fin 512) (e : Fin 1024) :
    k0_pay3 (F := Ideal) a w β (ix2 r e) = (∑ k : Fin 1024, a (ix2 r k) * w (ix2 k e)) + β (ix2 0 e) := by
  unfold k0_pay3 k0_pay1
  rw [shapeCast_self, shapeCast_self, shapeCast_self]
  exact congrArg₂ (· + ·) (tile_matmul a w r e) (bias_row β r e)

theorem k0_pay4_apply (a : FVec Ideal S512x1024 .bf16) (w : FVec Ideal S1024x1024 .bf16) (β : FVec Ideal S1x1024 .f32)
    (r : Fin 512) (e : Fin 1024) :
    k0_pay4 (F := Ideal) a w β (ix2 r e) = (∑ k : Fin 1024, a (ix2 r k) * w (ix2 k e)) + β (ix2 0 e) := by
  unfold k0_pay4 k0_pay1
  rw [shapeCast_self, shapeCast_self, shapeCast_self]
  exact congrArg₂ (· + ·) (tile_matmul a w r e) (bias_row β r e)

/-! ## The arrays after the region -/

/-- The scaled projection: `(Σ_k a[r, k] · w[k, e] + β[0, e])` times the f32 word of 0.125. -/
def Gs (a : S4096x1024.Idx → EReal) (w : S1024x1024.Idx → EReal) (β : S1x1024.Idx → EReal) : S4096x1024.Idx → EReal :=
  fun i => G a w β i * Ideal.ofBits .f32 0x3E000000#32

/-- The windows' block positions at tile `t`: the input and the three outputs move together down the rows; the
    weights and the biases stay put. -/
theorem idx_facts : ∀ t : Fin cfg0.N, win0_0.index t (0 : Fin 2) = win0_7.index t (0 : Fin 2)
    ∧ win0_7.index t (0 : Fin 2) = win0_8.index t (0 : Fin 2) ∧ win0_7.index t (0 : Fin 2) = win0_9.index t (0 : Fin 2)
    ∧ win0_0.index t (1 : Fin 2) = 0
    ∧ (win0_7.index t (1 : Fin 2) = 0 ∧ win0_8.index t (1 : Fin 2) = 0 ∧ win0_9.index t (1 : Fin 2) = 0)
    ∧ (win0_1.index t (0 : Fin 2) = 0 ∧ win0_1.index t (1 : Fin 2) = 0 ∧ win0_2.index t (0 : Fin 2) = 0 ∧ win0_2.index t (1 : Fin 2) = 0
        ∧ win0_3.index t (0 : Fin 2) = 0 ∧ win0_3.index t (1 : Fin 2) = 0)
    ∧ (win0_4.index t (0 : Fin 2) = 0 ∧ win0_4.index t (1 : Fin 2) = 0 ∧ win0_5.index t (0 : Fin 2) = 0 ∧ win0_5.index t (1 : Fin 2) = 0
        ∧ win0_6.index t (0 : Fin 2) = 0 ∧ win0_6.index t (1 : Fin 2) = 0)
    ∧ win0_7.index t (0 : Fin 2) ≤ 7 ∧ True :=
  (by decide +kernel : ∀ t : Fin grid0.N, _)

/-- Every row tile is some point's, for each of the three outputs. -/
theorem idx_onto : ∀ q0 : Fin 8, ∃ t : Fin cfg0.N, win0_7.index t = ![q0.val, 0] ∧ win0_8.index t = ![q0.val, 0] ∧ win0_9.index t = ![q0.val, 0] :=
  (by decide +kernel : ∀ q0 : Fin 8, ∃ t : Fin grid0.N, win0_7.index t = ![q0.val, 0] ∧ win0_8.index t = ![q0.val, 0] ∧ win0_9.index t = ![q0.val, 0])

variable (V : (c : Dev nD) → (b : Ref sig .tc) → Buf (Elt Ideal) ((c : Thread nD τ).loc b))

/-- What tile `t` writes back to the query output is tile `t` of its function of the arrays the region found. -/
theorem flushed7_eq (c : Dev nD) (t : Fin cfg0.N) :
    (dat0 V c).flushed 7 t = ((cfg0.win 7).blk t).view.read (Elt Ideal) (Gs (V c main_v1) (V c main_v3) (V c main_v10)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  obtain ⟨e0, e1, e2, e3, e4, e5, e6, e7, e8⟩ := idx_facts t
  funext j
  obtain ⟨r, e, rfl⟩ : ∃ (r : Fin 512) (e : Fin 1024), j = ix2 r e := ⟨j 0, j 1, eq_ix2 j⟩
  show k0_pay2 (F := Ideal) (iblk0 V c 0 t) (iblk0 V c 1 t) (iblk0 V c 4 t) (ix2 r e)
    = Gs (V c main_v1) (V c main_v3) (V c main_v10) (((cfg0.win 7).blk t).view.emb (ix2 r e))
  rw [k0_pay2_apply]
  unfold Gs G
  refine congrArg (· * Ideal.ofBits .f32 0x3E000000#32) (congrArg₂ (· + ·) (Finset.sum_congr rfl fun k _ => congrArg₂ (· * ·) ?_ ?_) ?_)
  · show V c main_v1 (((cfg0.win 0).blk t).view.emb (ix2 r k)) = V c main_v1 (aIdx (((cfg0.win 7).blk t).view.emb (ix2 r e)) k)
    refine congrArg (V c main_v1) (funext fun x => Fin.ext ?_)
    match x with
    | ⟨0, _⟩ => show win0_0.index t (0 : Fin 2) * 512 + 1 * r.val = win0_7.index t (0 : Fin 2) * 512 + 1 * r.val; omega
    | ⟨1, _⟩ => show win0_0.index t (1 : Fin 2) * 1024 + 1 * k.val = k.val; omega
  · show V c main_v3 (((cfg0.win 1).blk t).view.emb (ix2 k e)) = V c main_v3 (wIdx (((cfg0.win 7).blk t).view.emb (ix2 r e)) k)
    refine congrArg (V c main_v3) (funext fun x => Fin.ext ?_)
    match x with
    | ⟨0, _⟩ => show win0_1.index t (0 : Fin 2) * 1024 + 1 * k.val = k.val; omega
    | ⟨1, _⟩ => show win0_1.index t (1 : Fin 2) * 1024 + 1 * e.val = win0_7.index t (1 : Fin 2) * 1024 + 1 * e.val; omega
  · show V c main_v10 (((cfg0.win 4).blk t).view.emb (ix2 0 e)) = V c main_v10 (bIdx (((cfg0.win 7).blk t).view.emb (ix2 r e)))
    refine congrArg (V c main_v10) (funext fun x => Fin.ext ?_)
    match x with
    | ⟨0, _⟩ => show win0_4.index t (0 : Fin 2) * 1 + 1 * 0 = 0; omega
    | ⟨1, _⟩ => show win0_4.index t (1 : Fin 2) * 1024 + 1 * e.val = win0_7.index t (1 : Fin 2) * 1024 + 1 * e.val; omega

theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v13_0).slice (win0_7.rect t)).set ↔ _
  rw [View.set_slice_whole, Rect.mem_set_unit]
  exact Iff.rfl

theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht7, ht8, ht9⟩ := idx_onto ⟨(i 0).val / 512, by omega⟩
  have q0 : win0_7.index t (0 : Fin 2) = (i 0).val / 512 := congrFun ht7 0
  have q1 : win0_7.index t (1 : Fin 2) = 0 := congrFun ht7 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The query array after the region. -/
theorem final7 (c : Dev nD) : (dat0 V c).arrAt 7 cfg0.N = Gs (V c main_v1) (V c main_v3) (V c main_v10) :=
  (dat0 V c).arrAt_eq_of_cover 7 (Gs (V c main_v1) (V c main_v3) (V c main_v10)) (fun t _ => flushed7_eq V c t) cover7

/-- What tile `t` writes back to the key output is tile `t` of its function of the arrays the region found. -/
theorem flushed8_eq (c : Dev nD) (t : Fin cfg0.N) :
    (dat0 V c).flushed 8 t = ((cfg0.win 8).blk t).view.read (Elt Ideal) (G (V c main_v1) (V c main_v5) (V c main_v11)) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  obtain ⟨e0, e1, e2, e3, e4, e5, e6, e7, e8⟩ := idx_facts t
  funext j
  obtain ⟨r, e, rfl⟩ : ∃ (r : Fin 512) (e : Fin 1024), j = ix2 r e := ⟨j 0, j 1, eq_ix2 j⟩
  show k0_pay3 (F := Ideal) (iblk0 V c 0 t) (iblk0 V c 2 t) (iblk0 V c 5 t) (ix2 r e)
    = G (V c main_v1) (V c main_v5) (V c main_v11) (((cfg0.win 8).blk t).view.emb (ix2 r e))
  rw [k0_pay3_apply]
  unfold G
  refine (congrArg₂ (· + ·) (Finset.sum_congr rfl fun k _ => congrArg₂ (· * ·) ?_ ?_) ?_)
  · show V c main_v1 (((cfg0.win 0).blk t).view.emb (ix2 r k)) = V c main_v1 (aIdx (((cfg0.win 8).blk t).view.emb (ix2 r e)) k)
    refine congrArg (V c main_v1) (funext fun x => Fin.ext ?_)
    match x with
    | ⟨0, _⟩ => show win0_0.index t (0 : Fin 2) * 512 + 1 * r.val = win0_8.index t (0 : Fin 2) * 512 + 1 * r.val; omega
    | ⟨1, _⟩ => show win0_0.index t (1 : Fin 2) * 1024 + 1 * k.val = k.val; omega
  · show V c main_v5 (((cfg0.win 2).blk t).view.emb (ix2 k e)) = V c main_v5 (wIdx (((cfg0.win 8).blk t).view.emb (ix2 r e)) k)
    refine congrArg (V c main_v5) (funext fun x => Fin.ext ?_)
    match x with
    | ⟨0, _⟩ => show win0_2.index t (0 : Fin 2) * 1024 + 1 * k.val = k.val; omega
    | ⟨1, _⟩ => show win0_2.index t (1 : Fin 2) * 1024 + 1 * e.val = win0_8.index t (1 : Fin 2) * 1024 + 1 * e.val; omega
  · show V c main_v11 (((cfg0.win 5).blk t).view.emb (ix2 0 e)) = V c main_v11 (bIdx (((cfg0.win 8).blk t).view.emb (ix2 r e)))
    refine congrArg (V c main_v11) (funext fun x => Fin.ext ?_)
    match x with
    | ⟨0, _⟩ => show win0_5.index t (0 : Fin 2) * 1 + 1 * 0 = 0; omega
    | ⟨1, _⟩ => show win0_5.index t (1 : Fin 2) * 1024 + 1 * e.val = win0_8.index t (1 : Fin 2) * 1024 + 1 * e.val; omega

theorem mem_blk8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13_1).slice (win0_8.rect t)).set ↔ _
  rw [View.set_slice_whole, Rect.mem_set_unit]
  exact Iff.rfl

theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  obtain ⟨t, ht7, ht8, ht9⟩ := idx_onto ⟨(i 0).val / 512, by omega⟩
  have q0 : win0_8.index t (0 : Fin 2) = (i 0).val / 512 := congrFun ht8 0
  have q1 : win0_8.index t (1 : Fin 2) = 0 := congrFun ht8 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The key array after the region. -/
theorem final8 (c : Dev nD) : (dat0 V c).arrAt 8 cfg0.N = G (V c main_v1) (V c main_v5) (V c main_v11) :=
  (dat0 V c).arrAt_eq_of_cover 8 (G (V c main_v1) (V c main_v5) (V c main_v11)) (fun t _ => flushed8_eq V c t) cover8

/-- What tile `t` writes back to the value output is tile `t` of its function of the arrays the region found. -/
theorem flushed9_eq (c : Dev nD) (t : Fin cfg0.N) :
    (dat0 V c).flushed 9 t = ((cfg0.win 9).blk t).view.read (Elt Ideal) (G (V c main_v1) (V c main_v7) (V c main_v12)) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  obtain ⟨e0, e1, e2, e3, e4, e5, e6, e7, e8⟩ := idx_facts t
  funext j
  obtain ⟨r, e, rfl⟩ : ∃ (r : Fin 512) (e : Fin 1024), j = ix2 r e := ⟨j 0, j 1, eq_ix2 j⟩
  show k0_pay4 (F := Ideal) (iblk0 V c 0 t) (iblk0 V c 3 t) (iblk0 V c 6 t) (ix2 r e)
    = G (V c main_v1) (V c main_v7) (V c main_v12) (((cfg0.win 9).blk t).view.emb (ix2 r e))
  rw [k0_pay4_apply]
  unfold G
  refine (congrArg₂ (· + ·) (Finset.sum_congr rfl fun k _ => congrArg₂ (· * ·) ?_ ?_) ?_)
  · show V c main_v1 (((cfg0.win 0).blk t).view.emb (ix2 r k)) = V c main_v1 (aIdx (((cfg0.win 9).blk t).view.emb (ix2 r e)) k)
    refine congrArg (V c main_v1) (funext fun x => Fin.ext ?_)
    match x with
    | ⟨0, _⟩ => show win0_0.index t (0 : Fin 2) * 512 + 1 * r.val = win0_9.index t (0 : Fin 2) * 512 + 1 * r.val; omega
    | ⟨1, _⟩ => show win0_0.index t (1 : Fin 2) * 1024 + 1 * k.val = k.val; omega
  · show V c main_v7 (((cfg0.win 3).blk t).view.emb (ix2 k e)) = V c main_v7 (wIdx (((cfg0.win 9).blk t).view.emb (ix2 r e)) k)
    refine congrArg (V c main_v7) (funext fun x => Fin.ext ?_)
    match x with
    | ⟨0, _⟩ => show win0_3.index t (0 : Fin 2) * 1024 + 1 * k.val = k.val; omega
    | ⟨1, _⟩ => show win0_3.index t (1 : Fin 2) * 1024 + 1 * e.val = win0_9.index t (1 : Fin 2) * 1024 + 1 * e.val; omega
  · show V c main_v12 (((cfg0.win 6).blk t).view.emb (ix2 0 e)) = V c main_v12 (bIdx (((cfg0.win 9).blk t).view.emb (ix2 r e)))
    refine congrArg (V c main_v12) (funext fun x => Fin.ext ?_)
    match x with
    | ⟨0, _⟩ => show win0_6.index t (0 : Fin 2) * 1 + 1 * 0 = 0; omega
    | ⟨1, _⟩ => show win0_6.index t (1 : Fin 2) * 1024 + 1 * e.val = win0_9.index t (1 : Fin 2) * 1024 + 1 * e.val; omega

theorem mem_blk9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v13_2).slice (win0_9.rect t)).set ↔ _
  rw [View.set_slice_whole, Rect.mem_set_unit]
  exact Iff.rfl

theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  obtain ⟨t, ht7, ht8, ht9⟩ := idx_onto ⟨(i 0).val / 512, by omega⟩
  have q0 : win0_9.index t (0 : Fin 2) = (i 0).val / 512 := congrFun ht9 0
  have q1 : win0_9.index t (1 : Fin 2) = 0 := congrFun ht9 1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The value array after the region. -/
theorem final9 (c : Dev nD) : (dat0 V c).arrAt 9 cfg0.N = G (V c main_v1) (V c main_v7) (V c main_v12) :=
  (dat0 V c).arrAt_eq_of_cover 9 (G (V c main_v1) (V c main_v7) (V c main_v12)) (fun t _ => flushed9_eq V c t) cover9

end Cert.KernelIdeal.Region0

end
-- ==== Proof.Spec.lean ====
/-
  The mathematics of causal multi-head attention with four dense projections, stated twice over the extended
  reals and over literal shapes: once as the tiled kernel computes it and once as the plain reference does.

  Arrays are functions of an index. `x` is [2, 2048, 1024] (batch, position, model column); a weight matrix is
  [1024, 1024] read `w[e, d]` (output column, input column: a torch Linear); a bias is [1024]. Model column
  `c` belongs to head `c / 64` and is that head's coordinate `c % 64`.

  Both forms: three projections `q, k, v` of `x`; per batch, head and query position `s` the scores against
  the key positions `t`, with every key after the query (`t > s`) masked to `-∞`; a softmax over the keys; the
  weighted sum of the value rows; and a last projection.

  They differ in four places, none of which changes the value when every input entry is a real number:
  * the factor 1/8 (one over the square root of the head width 64) multiplies the query projection in the tiled
    form and the finished score in the plain form;
  * the tiled form looks only at the keys `t < n` where `n` is the end of the query's 512-row tile, all later
    keys being masked anyway (their weight `exp (-∞ - M)` is `0` and they do not move the maximum);
  * the tiled form divides the weighted sum by the normaliser once, the plain form divides every weight first;
  * sums and maxima are taken over differently shaped index sets.
-/
import Idealize.ShloMosaic.PureOps.Ideal
import Idealize.ShloMosaic.Lib.ValueIdx

noncomputable section

open scoped BigOperators

namespace Cert.Attn

open Idealize.ShloMosaic Idealize.ShloMosaic.ValueIdx

/-- Activations [2, 2048, 1024]. -/
abbrev Act := (⟨3, ![2, 2048, 1024]⟩ : Shape).Idx → EReal
/-- A weight matrix [1024, 1024], read `w[e, d]`. -/
abbrev Wt := (⟨2, ![1024, 1024]⟩ : Shape).Idx → EReal
/-- A bias [1024]. -/
abbrev Bias := (⟨1, ![1024]⟩ : Shape).Idx → EReal
/-- One batch entry's rows: position by model column. -/
abbrev Mat := Fin 2048 → Fin 1024 → EReal

/-- The scale 1/8 as both programs spell it: the f32 word of 0.125. -/
def eighth : EReal := Ideal.ofBits .f32 0x3E000000#32

/-- Column `64 h + d`: coordinate `d` of head `h`. -/
def col (h : Fin 16) (d : Fin 64) : Fin 1024 := ⟨64 * h.val + d.val, by omega⟩

/-- The head a model column belongs to. -/
def headOf (c : Fin 1024) : Fin 16 := ⟨c.val / 64, by omega⟩

/-- A torch Linear: `y[b, s, e] = Σ_d x[b, s, d] · w[e, d] + β[e]`. -/
def linear (x : Act) (w : Wt) (β : Bias) : Act := fun i =>
  (∑ d : Fin 1024, x (ix3 (i 0) (i 1) d) * w (ix2 (i 2) d)) + β (ix1 (i 2))

/-- The query projection with the softmax scale folded in, as the tiled form has it. -/
def linearScaled (x : Act) (w : Wt) (β : Bias) : Act := fun i => linear x w β i * eighth

/-- One batch entry of an activation array. -/
def rows (a : Act) (b : Fin 2) : Mat := fun s c => a (ix3 b s c)

/-! ## The plain form -/

/-- Head `h`'s masked score of query `s` against key `t`: the scaled dot product where `t ≤ s`, else `-∞`. -/
def scoreRef (Q K : Mat) (h : Fin 16) (s t : Fin 2048) : EReal :=
  if t.val ≤ s.val then (∑ d : Fin 64, Q s (col h d) * K t (col h d)) * eighth else ⊥

/-- Softmax attention over all 2048 keys: every weight divided by the normaliser, then the weighted sum. -/
def attnRefCore (Q K V : Mat) (s : Fin 2048) (c : Fin 1024) : EReal :=
  let sc : Fin 2048 → EReal := fun t => scoreRef Q K (headOf c) s t
  let M : EReal := Finset.univ.sup sc
  let L : EReal := ∑ t : Fin 2048, Ideal.exp (sc t - M)
  ∑ t : Fin 2048, Ideal.div (Ideal.exp (sc t - M)) L * V t c

def attnRef (q k v : Act) : Act := fun i =>
  attnRefCore (rows q (i 0)) (rows k (i 0)) (rows v (i 0)) (i 1) (i 2)

/-- The whole function as the plain reference computes it. -/
def Gref (x : Act) (wq : Wt) (bq : Bias) (wk : Wt) (bk : Bias) (wv : Wt) (bv : Bias) (wo : Wt) (bo : Bias) : Act :=
  linear (attnRef (linear x wq bq) (linear x wk bk) (linear x wv bv)) wo bo

/-! ## The tiled form -/

/-- Head `h`'s masked score of query `s` against key `t` from an already scaled query: no further factor. -/
def scoreKer (Q K : Mat) (h : Fin 16) (s t : Fin 2048) : EReal :=
  if t.val ≤ s.val then ∑ d : Fin 64, Q s (col h d) * K t (col h d) else ⊥

/-- Softmax attention over the first `n` keys only: the weighted sum of the value rows divided once by the
    normaliser. -/
def attnKerCore (n : Nat) (hn : n ≤ 2048) (Q K V : Mat) (s : Fin 2048) (c : Fin 1024) : EReal :=
  let sc : Fin n → EReal := fun t => scoreKer Q K (headOf c) s (Fin.castLE hn t)
  let M : EReal := Finset.univ.sup sc
  let L : EReal := ∑ t : Fin n, Ideal.exp (sc t - M)
  Ideal.div (∑ t : Fin n, Ideal.exp (sc t - M) * V (Fin.castLE hn t) c) L

/-- The end of the 512-row tile that holds position `s`. -/
def tileEnd (s : Fin 2048) : Nat := s.val / 512 * 512 + 512

theorem tileEnd_le (s : Fin 2048) : tileEnd s ≤ 2048 := by unfold tileEnd; omega

def attnKer (q k v : Act) : Act := fun i =>
  attnKerCore (tileEnd (i 1)) (tileEnd_le (i 1)) (rows q (i 0)) (rows k (i 0)) (rows v (i 0)) (i 1) (i 2)

/-- The whole function as the tiled kernel computes it. -/
def Gker (x : Act) (wq : Wt) (bq : Bias) (wk : Wt) (bk : Bias) (wv : Wt) (bv : Bias) (wo : Wt) (bo : Bias) : Act :=
  linear (attnKer (linearScaled x wq bq) (linear x wk bk) (linear x wv bv)) wo bo

/-- Every entry of an array is a real number. -/
def AllReal {ι : Type} (a : ι → EReal) : Prop := ∀ i, ∃ r : ℝ, a i = (r : EReal)

end Cert.Attn

end
-- ==== Proof.Region1.lean ====
/-
  The attention region read as a function, given what its body computes. The region runs over the two batch
  entries; at entry `t` the three input windows and the output window each hold that entry's whole [1, 2048, 1024]
  slab, and the body leaves in the output slab the tiled causal attention of the three input slabs. So the array
  after the region is the tiled attention of the three arrays the region found, batch entry by batch entry.
-/
import proofs.«129124_j25151328485592_2_alg».proof.Proof.Gen.KernelIdeal.Frame
import proofs.«129124_j25151328485592_2_alg».proof.Proof.Spec
import Idealize.ShloMosaic.Lib.ValueIdx
import Idealize.ShloMosaic.Lib.Pipeline.Value

set_option maxRecDepth 16384

noncomputable section

open scoped BigOperators

namespace Cert.KernelIdeal.Region1

open Cert.KernelIdeal Cert.KernelIdeal.Gen Cert.Attn
open Idealize.ShloMosaic Idealize.ShloMosaic.TcCoe Idealize.ShloMosaic.ValueIdx Idealize.SL.Sem
open Idealize.ShloMosaic.Pipeline (Dat Cfg Window)

/-- The body's output slab is the tiled attention of its three input slabs, row `s` and column `c`. -/
def BodyIsAttn : Prop :=
  ∀ (x0 x1 x2 : Vec Ideal S1x2048x1024 .bf16) (s : Fin 2048) (c : Fin 1024),
    out1_3 (F := Ideal) x0 x1 x2 (ix3 0 s c)
      = attnKerCore (tileEnd s) (tileEnd_le s) (fun s c => x0 (ix3 0 s c)) (fun s c => x1 (ix3 0 s c)) (fun s c => x2 (ix3 0 s c)) s c

/-- The windows' block positions at batch entry `t`: all four sit at the same batch entry, at the origin of the
    other two axes. -/
theorem idx_facts : ∀ t : Fin cfg1.N, win1_0.index t (0 : Fin 3) = win1_3.index t (0 : Fin 3)
    ∧ win1_1.index t (0 : Fin 3) = win1_3.index t (0 : Fin 3) ∧ win1_2.index t (0 : Fin 3) = win1_3.index t (0 : Fin 3)
    ∧ (win1_0.index t (1 : Fin 3) = 0 ∧ win1_0.index t (2 : Fin 3) = 0 ∧ win1_1.index t (1 : Fin 3) = 0 ∧ win1_1.index t (2 : Fin 3) = 0)
    ∧ (win1_2.index t (1 : Fin 3) = 0 ∧ win1_2.index t (2 : Fin 3) = 0 ∧ win1_3.index t (1 : Fin 3) = 0 ∧ win1_3.index t (2 : Fin 3) = 0)
    ∧ win1_3.index t (0 : Fin 3) ≤ 1 :=
  (by decide +kernel : ∀ t : Fin grid1.N, _)

/-- Each batch entry is some point's. -/
theorem idx_onto : ∀ q0 : Fin 2, ∃ t : Fin cfg1.N, win1_3.index t = ![q0.val, 0, 0] :=
  (by decide +kernel : ∀ q0 : Fin 2, ∃ t : Fin grid1.N, win1_3.index t = ![q0.val, 0, 0])

variable (V : (c : Dev nD) → (b : Ref sig .tc) → Buf (Elt Ideal) ((c : Thread nD τ).loc b))

/-- What batch entry `t` writes back is entry `t` of the tiled attention of the arrays the region found. -/
theorem flushed_eq (hbody : BodyIsAttn) (c : Dev nD) (t : Fin cfg1.N) :
    (dat1 V c).flushed 3 t = ((cfg1.win 3).blk t).view.read (Elt Ideal) (attnKer (V c main_v14) (V c main_v15) (V c main_v16)) := by
  show (cfg1.win 3).cut (grid1.coords t) ((dat1 V c).after 3 t) = _
  rw [after1_3]
  obtain ⟨e0, e1, e2, ⟨e3, e4, e5, e6⟩, ⟨e7, e8, e9, e10⟩, e11⟩ := idx_facts t
  funext j
  obtain ⟨z, s, col, rfl⟩ : ∃ (z : Fin 1) (s : Fin 2048) (col : Fin 1024), j = ix3 z s col := ⟨j 0, j 1, j 2, eq_ix3 j⟩
  obtain rfl : z = 0 := Subsingleton.elim _ _
  show out1_3 (F := Ideal) (iblk1 V c 0 t) (iblk1 V c 1 t) (iblk1 V c 2 t) (ix3 0 s col)
    = attnKer (V c main_v14) (V c main_v15) (V c main_v16) (((cfg1.win 3).blk t).view.emb (ix3 0 s col))
  rw [hbody]
  have hb : win1_3.index t (0 : Fin 3) < 2 := by omega
  have hemb : ((cfg1.win 3).blk t).view.emb (ix3 0 s col) = ix3 (⟨win1_3.index t (0 : Fin 3), hb⟩ : Fin 2) s col :=
    funext fun x => Fin.ext (by
      match x with
      | ⟨0, _⟩ => show win1_3.index t (0 : Fin 3) * 1 + 1 * 0 = win1_3.index t (0 : Fin 3); omega
      | ⟨1, _⟩ => show win1_3.index t (1 : Fin 3) * 2048 + 1 * s.val = s.val; omega
      | ⟨2, _⟩ => show win1_3.index t (2 : Fin 3) * 1024 + 1 * col.val = col.val; omega)
  rw [hemb]
  have hq : (fun (s' : Fin 2048) (c' : Fin 1024) => iblk1 V c 0 t (ix3 0 s' c')) = rows (V c main_v14) ⟨win1_3.index t (0 : Fin 3), hb⟩ :=
    funext fun s' => funext fun c' => by
      show V c main_v14 (((cfg1.win 0).blk t).view.emb (ix3 0 s' c')) = V c main_v14 (ix3 (⟨win1_3.index t (0 : Fin 3), hb⟩ : Fin 2) s' c')
      refine congrArg (V c main_v14) (funext fun x => Fin.ext ?_)
      match x with
      | ⟨0, _⟩ => show win1_0.index t (0 : Fin 3) * 1 + 1 * 0 = win1_3.index t (0 : Fin 3); omega
      | ⟨1, _⟩ => show win1_0.index t (1 : Fin 3) * 2048 + 1 * s'.val = s'.val; omega
      | ⟨2, _⟩ => show win1_0.index t (2 : Fin 3) * 1024 + 1 * c'.val = c'.val; omega
  have hk : (fun (s' : Fin 2048) (c' : Fin 1024) => iblk1 V c 1 t (ix3 0 s' c')) = rows (V c main_v15) ⟨win1_3.index t (0 : Fin 3), hb⟩ :=
    funext fun s' => funext fun c' => by
      show V c main_v15 (((cfg1.win 1).blk t).view.emb (ix3 0 s' c')) = V c main_v15 (ix3 (⟨win1_3.index t (0 : Fin 3), hb⟩ : Fin 2) s' c')
      refine congrArg (V c main_v15) (funext fun x => Fin.ext ?_)
      match x with
      | ⟨0, _⟩ => show win1_1.index t (0 : Fin 3) * 1 + 1 * 0 = win1_3.index t (0 : Fin 3); omega
      | ⟨1, _⟩ => show win1_1.index t (1 : Fin 3) * 2048 + 1 * s'.val = s'.val; omega
      | ⟨2, _⟩ => show win1_1.index t (2 : Fin 3) * 1024 + 1 * c'.val = c'.val; omega
  have hv : (fun (s' : Fin 2048) (c' : Fin 1024) => iblk1 V c 2 t (ix3 0 s' c')) = rows (V c main_v16) ⟨win1_3.index t (0 : Fin 3), hb⟩ :=
    funext fun s' => funext fun c' => by
      show V c main_v16 (((cfg1.win 2).blk t).view.emb (ix3 0 s' c')) = V c main_v16 (ix3 (⟨win1_3.index t (0 : Fin 3), hb⟩ : Fin 2) s' c')
      refine congrArg (V c main_v16) (funext fun x => Fin.ext ?_)
      match x with
      | ⟨0, _⟩ => show win1_2.index t (0 : Fin 3) * 1 + 1 * 0 = win1_3.index t (0 : Fin 3); omega
      | ⟨1, _⟩ => show win1_2.index t (1 : Fin 3) * 2048 + 1 * s'.val = s'.val; omega
      | ⟨2, _⟩ => show win1_2.index t (2 : Fin 3) * 1024 + 1 * c'.val = c'.val; omega
  rw [hq, hk, hv]
  rfl

/-- An index of the array is in entry `t`'s block iff each coordinate is in the block's range on its axis. -/
theorem mem_blk (t : Fin cfg1.N) (i : S2x2048x1024.Idx) :
    i ∈ ((cfg1.win 3).blk t).view.set ↔ ∀ a : Fin 3, win1_3.index t a * S1x2048x1024.size a ≤ (i a).val ∧ (i a).val < win1_3.index t a * S1x2048x1024.size a + S1x2048x1024.size a := by
  show i ∈ ((View.whole main_v17).slice (win1_3.rect t)).set ↔ _
  rw [View.set_slice_whole, Rect.mem_set_unit]
  exact Iff.rfl

/-- The two batch entries cover the array. -/
theorem cover (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 1024 ≤ (i 2).val ∧ (i 2).val < win1_3.index t (2 : Fin 3) * 1024 + 1024; omega

/-- The array after the region. -/
theorem final (hbody : BodyIsAttn) (c : Dev nD) :
    (dat1 V c).arrAt 3 cfg1.N = attnKer (V c main_v14) (V c main_v15) (V c main_v16) :=
  (dat1 V c).arrAt_eq_of_cover 3 (attnKer (V c main_v14) (V c main_v15) (V c main_v16)) (fun t _ => flushed_eq V hbody c t) cover

end Cert.KernelIdeal.Region1

end
-- ==== Proof.KernelFold.lean ====
/-
  The idealized kernel's result as one function of its nine arguments. The contents of the result buffer at the
  last boundary are followed back through the program: a reshape of the output projection region's array; that
  region's array is `Σ_k a[r, k] · w[k, e] + β[0, e]` of the flattened attention output, the transposed output
  weight and the output bias row; the attention output is the attention region's array, the tiled attention of
  the three projections reshaped to [2, 2048, 1024]; each projection is the first region's array over the
  flattened input, a transposed weight and a bias row, the query one scaled. Flattening [2, 2048, 1024] to
  [4096, 1024] sends row `2048 b + s` to `(b, s)`; the transpose reads `w[e, k]`; so each projection is the torch
  Linear of the specification, and the whole is its tiled form `Gker`.
-/
import proofs.«129124_j25151328485592_2_alg».proof.Proof.Region0
import proofs.«129124_j25151328485592_2_alg».proof.Proof.Region1
import Idealize.ShloMosaic.Lib.StableHlo.Run

set_option maxRecDepth 16384

noncomputable section

open scoped BigOperators

namespace Cert.KernelIdeal.Fold

open Cert.KernelIdeal Cert.KernelIdeal.Gen Cert.Attn
open Idealize.ShloMosaic Idealize.ShloMosaic.TcCoe Idealize.ShloMosaic.ValueIdx Idealize.SL.Sem Idealize.ShloMosaic.StableHlo

/-! ## The layout operations at an index -/

/-- [2, 2048, 1024] flattened to [4096, 1024]: row `2048 b + s` is `(b, s)`. -/
theorem flatten_apply (A : S2x2048x1024.Idx → EReal) (b : Fin 2) (s : Fin 2048) (k : Fin 1024) (r : Fin 4096)
    (hr : r.val = b.val * 2048 + s.val) :
    shapeCast S4096x1024 A shapeCasts_S2x2048x1024_S4096x1024 (ix2 r k) = A (ix3 b s k) := by
  refine shapeCast_apply A shapeCasts_S2x2048x1024_S4096x1024 (ix2 r k) (ix3 b s k) ?_
  rw [Shape.rowMajor_val_three, Shape.rowMajor_val_two]
  show (b.val * 2048 + s.val) * 1024 + k.val = r.val * 1024 + k.val
  rw [hr]

/-- … and back. -/
theorem unflatten_apply (A : S4096x1024.Idx → EReal) (b : Fin 2) (s : Fin 2048) (k : Fin 1024) (r : Fin 4096)
    (hr : r.val = b.val * 2048 + s.val) :
    shapeCast S2x2048x1024 A shapeCasts_S4096x1024_S2x2048x1024 (ix3 b s k) = A (ix2 r k) := by
  refine shapeCast_apply A shapeCasts_S4096x1024_S2x2048x1024 (ix3 b s k) (ix2 r k) ?_
  rw [Shape.rowMajor_val_three, Shape.rowMajor_val_two]
  show r.val * 1024 + k.val = (b.val * 2048 + s.val) * 1024 + k.val
  rw [hr]

/-- The transposed weight at `(k, e)` is the weight at `(e, k)`. -/
theorem transposeW_apply (W : S1024x1024.Idx → EReal) (k e : Fin 1024) :
    transpose S1024x1024 [1, 0] W transposes_S1024x1024_S1024x1024_1_0 (ix2 k e) = W (ix2 e k) := by
  refine transpose_apply [1, 0] W transposes_S1024x1024_S1024x1024_1_0 (ix2 k e) (ix2 e k) fun x => ?_
  match x with
  | ⟨0, _⟩ => rfl
  | ⟨1, _⟩ => rfl

/-- The bias as a row [1, 1024]. -/
theorem biasRow_apply (β : S1024.Idx → EReal) (e : Fin 1024) :
    shapeCast S1x1024 β shapeCasts_S1024_S1x1024 (ix2 0 e) = β (ix1 e) := by
  refine shapeCast_apply β shapeCasts_S1024_S1x1024 (ix2 0 e) (ix1 e) ?_
  rw [Shape.rowMajor_val_one, Shape.rowMajor_val_two]
  show e.val = 0 * 1024 + e.val
  omega

theorem aIdx_ix2 (r : Fin 4096) (e k : Fin 1024) : Region2.aIdx (ix2 r e) k = ix2 r k :=
  funext fun x => by match x with | ⟨0, _⟩ => rfl | ⟨1, _⟩ => rfl
theorem wIdx_ix2 (r : Fin 4096) (e k : Fin 1024) : Region2.wIdx (ix2 r e) k = ix2 k e :=
  funext fun x => by match x with | ⟨0, _⟩ => rfl | ⟨1, _⟩ => rfl
theorem bIdx_ix2 (r : Fin 4096) (e : Fin 1024) : Region2.bIdx (ix2 r e) = ix2 0 e :=
  funext fun x => by match x with | ⟨0, _⟩ => rfl | ⟨1, _⟩ => rfl

theorem truncf_id {s : Shape} (a : FVec Ideal s .f32) : (truncf .bf16 a bitsLt_bf16_f32 : FVec Ideal s .bf16) = a := rfl

/-- A region's `Σ_k a[r, k] · w[k, e] + β[0, e]` over a flattened activation, a transposed weight and a bias row
    is the torch Linear of the unflattened activation, at row `2048 b + s`. -/
theorem G_linear (A : Act) (W : Wt) (β : Bias) (b : Fin 2) (s : Fin 2048) (e : Fin 1024) (r : Fin 4096)
    (hr : r.val = b.val * 2048 + s.val) :
    Region2.G (shapeCast S4096x1024 A shapeCasts_S2x2048x1024_S4096x1024)
        (transpose S1024x1024 [1, 0] W transposes_S1024x1024_S1024x1024_1_0)
        (shapeCast S1x1024 β shapeCasts_S1024_S1x1024) (ix2 r e)
      = linear A W β (ix3 b s e) := by
  unfold Region2.G linear
  simp only [aIdx_ix2, wIdx_ix2, bIdx_ix2]
  refine congrArg₂ (· + ·) (Finset.sum_congr rfl fun k _ => congrArg₂ (· * ·) ?_ ?_) ?_
  · exact flatten_apply A b s k r hr
  · exact transposeW_apply W k e
  · exact biasRow_apply β e

variable (m : (ℓ : Loc nD τ sig) → Buf (Elt Ideal) ℓ) (ρ : Dev nD → PrngReg)

/-! ## The first region's entry: the flattened input, the transposed weights, the bias rows -/

theorem entry0_x (c : Dev nD) : (V1 m ρ c main_v1 : (⟨S4096x1024, .bf16⟩ : BufTy).Contents (Elt Ideal))
    = shapeCast S4096x1024 (m ((c : Thread nD τ).loc main_arg0)) shapeCasts_S2x2048x1024_S4096x1024 := by
  show StableHlo.after hostOps0 (W0 m ρ c) (Proc.devRef .tc main_v1) = _
  after_results
  rfl
theorem entry0_wq (c : Dev nD) : (V1 m ρ c main_v3 : (⟨S1024x1024, .bf16⟩ : BufTy).Contents (Elt Ideal))
    = transpose S1024x1024 [1, 0] (m ((c : Thread nD τ).loc main_arg1)) transposes_S1024x1024_S1024x1024_1_0 := by
  show StableHlo.after hostOps0 (W0 m ρ c) (Proc.devRef .tc main_v3) = _
  after_results
  rfl
theorem entry0_wk (c : Dev nD) : (V1 m ρ c main_v5 : (⟨S1024x1024, .bf16⟩ : BufTy).Contents (Elt Ideal))
    = transpose S1024x1024 [1, 0] (m ((c : Thread nD τ).loc main_arg3)) transposes_S1024x1024_S1024x1024_1_0 := by
  show StableHlo.after hostOps0 (W0 m ρ c) (Proc.devRef .tc main_v5) = _
  after_results
  rfl
theorem entry0_wv (c : Dev nD) : (V1 m ρ c main_v7 : (⟨S1024x1024, .bf16⟩ : BufTy).Contents (Elt Ideal))
    = transpose S1024x1024 [1, 0] (m ((c : Thread nD τ).loc main_arg5)) transposes_S1024x1024_S1024x1024_1_0 := by
  show StableHlo.after hostOps0 (W0 m ρ c) (Proc.devRef .tc main_v7) = _
  after_results
  rfl
theorem entry0_wo (c : Dev nD) : (W1 m ρ c (Proc.devRef .tc main_v9) : (⟨S1024x1024, .bf16⟩ : BufTy).Contents (Elt Ideal))
    = transpose S1024x1024 [1, 0] (m ((c : Thread nD τ).loc main_arg7)) transposes_S1024x1024_S1024x1024_1_0 := by
  show StableHlo.after hostOps0 (W0 m ρ c) (Proc.devRef .tc main_v9) = _
  after_results
  rfl
theorem entry0_bq (c : Dev nD) : (V1 m ρ c main_v10 : (⟨S1x1024, .f32⟩ : BufTy).Contents (Elt Ideal))
    = shapeCast S1x1024 (m ((c : Thread nD τ).loc main_arg2)) shapeCasts_S1024_S1x1024 := by
  show StableHlo.after hostOps0 (W0 m ρ c) (Proc.devRef .tc main_v10) = _
  after_results
  rfl
theorem entry0_bk (c : Dev nD) : (V1 m ρ c main_v11 : (⟨S1x1024, .f32⟩ : BufTy).Contents (Elt Ideal))
    = shapeCast S1x1024 (m ((c : Thread nD τ).loc main_arg4)) shapeCasts_S1024_S1x1024 := by
  show StableHlo.after hostOps0 (W0 m ρ c) (Proc.devRef .tc main_v11) = _
  after_results
  rfl
theorem entry0_bv (c : Dev nD) : (V1 m ρ c main_v12 : (⟨S1x1024, .f32⟩ : BufTy).Contents (Elt Ideal))
    = shapeCast S1x1024 (m ((c : Thread nD τ).loc main_arg6)) shapeCasts_S1024_S1x1024 := by
  show StableHlo.after hostOps0 (W0 m ρ c) (Proc.devRef .tc main_v12) = _
  after_results
  rfl
/-- The output bias is untouched until the last region's entry. -/
theorem keep_bo (c : Dev nD) : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

/-! ## The attention region's entry: the three projections -/

theorem entry1_q (c : Dev nD) : (V3 m ρ c main_v14 : Act)
    = linearScaled (m ((c : Thread nD τ).loc main_arg0)) (m ((c : Thread nD τ).loc main_arg1)) (m ((c : Thread nD τ).loc main_arg2)) := by
  have h1 : (V3 m ρ c main_v14 : (⟨S2x2048x1024, .bf16⟩ : BufTy).Contents (Elt Ideal))
      = shapeCast S2x2048x1024 (W2 m ρ c (Proc.devRef .tc main_v13_0)) shapeCasts_S4096x1024_S2x2048x1024 := by
    show StableHlo.after hostOps1 (W2 m ρ c) (Proc.devRef .tc main_v14) = _
    after_results
    rfl
  have h2 : W2 m ρ c (Proc.devRef .tc main_v13_0) = Region0.Gs (V1 m ρ c main_v1) (V1 m ρ c main_v3) (V1 m ρ c main_v10) :=
    (W2_arr m ρ c 7).trans (Region0.final7 (V1 m ρ) c)
  rw [h1, h2, entry0_x, entry0_wq, entry0_bq]
  funext i
  obtain ⟨b, s, e, rfl⟩ : ∃ (b : Fin 2) (s : Fin 2048) (e : Fin 1024), i = ix3 b s e := ⟨i 0, i 1, i 2, eq_ix3 i⟩
  have hr : (⟨b.val * 2048 + s.val, by omega⟩ : Fin 4096).val = b.val * 2048 + s.val := rfl
  rw [unflatten_apply _ b s e ⟨b.val * 2048 + s.val, by omega⟩ hr]
  unfold Region0.Gs linearScaled eighth
  rw [G_linear _ _ _ b s e ⟨b.val * 2048 + s.val, by omega⟩ hr]

theorem entry1_k (c : Dev nD) : (V3 m ρ c main_v15 : Act)
    = linear (m ((c : Thread nD τ).loc main_arg0)) (m ((c : Thread nD τ).loc main_arg3)) (m ((c : Thread nD τ).loc main_arg4)) := by
  have h1 : (V3 m ρ c main_v15 : (⟨S2x2048x1024, .bf16⟩ : BufTy).Contents (Elt Ideal))
      = shapeCast S2x2048x1024 (W2 m ρ c (Proc.devRef .tc main_v13_1)) shapeCasts_S4096x1024_S2x2048x1024 := by
    show StableHlo.after hostOps1 (W2 m ρ c) (Proc.devRef .tc main_v15) = _
    after_results
    rfl
  have h2 : W2 m ρ c (Proc.devRef .tc main_v13_1) = Region2.G (V1 m ρ c main_v1) (V1 m ρ c main_v5) (V1 m ρ c main_v11) :=
    (W2_arr m ρ c 8).trans (Region0.final8 (V1 m ρ) c)
  rw [h1, h2, entry0_x, entry0_wk, entry0_bk]
  funext i
  obtain ⟨b, s, e, rfl⟩ : ∃ (b : Fin 2) (s : Fin 2048) (e : Fin 1024), i = ix3 b s e := ⟨i 0, i 1, i 2, eq_ix3 i⟩
  have hr : (⟨b.val * 2048 + s.val, by omega⟩ : Fin 4096).val = b.val * 2048 + s.val := rfl
  rw [unflatten_apply _ b s e ⟨b.val * 2048 + s.val, by omega⟩ hr]
  exact G_linear _ _ _ b s e ⟨b.val * 2048 + s.val, by omega⟩ hr

theorem entry1_v (c : Dev nD) : (V3 m ρ c main_v16 : Act)
    = linear (m ((c : Thread nD τ).loc main_arg0)) (m ((c : Thread nD τ).loc main_arg5)) (m ((c : Thread nD τ).loc main_arg6)) := by
  have h1 : (V3 m ρ c main_v16 : (⟨S2x2048x1024, .bf16⟩ : BufTy).Contents (Elt Ideal))
      = shapeCast S2x2048x1024 (W2 m ρ c (Proc.devRef .tc main_v13_2)) shapeCasts_S4096x1024_S2x2048x1024 := by
    show StableHlo.after hostOps1 (W2 m ρ c) (Proc.devRef .tc main_v16) = _
    after_results
    rfl
  have h2 : W2 m ρ c (Proc.devRef .tc main_v13_2) = Region2.G (V1 m ρ c main_v1) (V1 m ρ c main_v7) (V1 m ρ c main_v12) :=
    (W2_arr m ρ c 9).trans (Region0.final9 (V1 m ρ) c)
  rw [h1, h2, entry0_x, entry0_wv, entry0_bv]
  funext i
  obtain ⟨b, s, e, rfl⟩ : ∃ (b : Fin 2) (s : Fin 2048) (e : Fin 1024), i = ix3 b s e := ⟨i 0, i 1, i 2, eq_ix3 i⟩
  have hr : (⟨b.val * 2048 + s.val, by omega⟩ : Fin 4096).val = b.val * 2048 + s.val := rfl
  rw [unflatten_apply _ b s e ⟨b.val * 2048 + s.val, by omega⟩ hr]
  exact G_linear _ _ _ b s e ⟨b.val * 2048 + s.val, by omega⟩ hr

/-! ## The last region's entry, and the result -/

/-- The attention region's array: the tiled attention of the three projections. -/
theorem attn_out (hbody : Region1.BodyIsAttn) (c : Dev nD) : (W4 m ρ c (Proc.devRef .tc main_v17) : Act)
    = attnKer (linearScaled (m ((c : Thread nD τ).loc main_arg0)) (m ((c : Thread nD τ).loc main_arg1)) (m ((c : Thread nD τ).loc main_arg2)))
        (linear (m ((c : Thread nD τ).loc main_arg0)) (m ((c : Thread nD τ).loc main_arg3)) (m ((c : Thread nD τ).loc main_arg4)))
        (linear (m ((c : Thread nD τ).loc main_arg0)) (m ((c : Thread nD τ).loc main_arg5)) (m ((c : Thread nD τ).loc main_arg6))) := by
  have h := (W4_arr m ρ c 3).trans (Region1.final (V3 m ρ) hbody c)
  rw [entry1_q, entry1_k, entry1_v] at h
  exact h

theorem entry2_wo (c : Dev nD) : (V5 m ρ c main_v9 : (⟨S1024x1024, .bf16⟩ : BufTy).Contents (Elt Ideal))
    = transpose S1024x1024 [1, 0] (m ((c : Thread nD τ).loc main_arg7)) transposes_S1024x1024_S1024x1024_1_0 := by
  show StableHlo.after hostOps2 (W4 m ρ c) (Proc.devRef .tc main_v9) = _
  after_results
  rw [W4_of_ne m ρ c main_v9 (by decide)]
  show StableHlo.after hostOps1 (W2 m ρ c) (Proc.devRef .tc main_v9) = _
  after_results
  rw [W2_of_ne m ρ c main_v9 (by decide)]
  exact entry0_wo m ρ c

theorem entry2_bo (c : Dev nD) : (V5 m ρ c main_v19 : (⟨S1x1024, .f32⟩ : BufTy).Contents (Elt Ideal))
    = shapeCast S1x1024 (m ((c : Thread nD τ).loc main_arg8)) shapeCasts_S1024_S1x1024 := by
  show StableHlo.after hostOps2 (W4 m ρ c) (Proc.devRef .tc main_v19) = _
  after_results
  rw [keep_bo m ρ c]
  rfl

theorem entry2_a (c : Dev nD) : (V5 m ρ c main_v18 : (⟨S4096x1024, .bf16⟩ : BufTy).Contents (Elt Ideal))
    = shapeCast S4096x1024 (W4 m ρ c (Proc.devRef .tc main_v17)) shapeCasts_S2x2048x1024_S4096x1024 := by
  show StableHlo.after hostOps2 (W4 m ρ c) (Proc.devRef .tc main_v18) = _
  after_results
  rfl

/-- THE RESULT: the last boundary's contents of the result buffer are the tiled form of the whole function. -/
theorem result (hbody : Region1.BodyIsAttn) (c : Dev nD) : (W7 m ρ c (Proc.devRef .tc main_v21) : Act)
    = Gker (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  have h7 : (W7 m ρ c (Proc.devRef .tc main_v21) : (⟨S2x2048x1024, .f32⟩ : BufTy).Contents (Elt Ideal))
      = shapeCast S2x2048x1024 (W6 m ρ c (Proc.devRef .tc main_v20)) shapeCasts_S4096x1024_S2x2048x1024 := by
    show StableHlo.after hostOps3 (W6 m ρ c) (Proc.devRef .tc main_v21) = _
    after_results
    rfl
  have h6 : W6 m ρ c (Proc.devRef .tc main_v20) = Region2.G (V5 m ρ c main_v18) (V5 m ρ c main_v9) (V5 m ρ c main_v19) :=
    (W6_arr m ρ c 3).trans (Region2.final (V5 m ρ) c)
  rw [h7, h6, entry2_a, entry2_wo, entry2_bo, attn_out m ρ hbody c]
  funext i
  obtain ⟨b, s, e, rfl⟩ : ∃ (b : Fin 2) (s : Fin 2048) (e : Fin 1024), i = ix3 b s e := ⟨i 0, i 1, i 2, eq_ix3 i⟩
  have hr : (⟨b.val * 2048 + s.val, by omega⟩ : Fin 4096).val = b.val * 2048 + s.val := rfl
  rw [unflatten_apply _ b s e ⟨b.val * 2048 + s.val, by omega⟩ hr]
  unfold Gker
  exact G_linear _ _ _ b s e ⟨b.val * 2048 + s.val, by omega⟩ hr

end Cert.KernelIdeal.Fold

end
-- ==== Proof.AttnTile.lean ====
/-
  Softmax attention over one 512-row query tile and one head, read entry by entry.

  The tile's computation is written once for a key prefix of any length n: scores of the 512 queries against
  the n keys (a product contracting the 64 head coordinates), a mask, the row maximum, the exponentials of the
  differences, their row sum, the weighted sum of the value rows, and one division by the row sum.  Each entry
  of the result is then a closed formula in the entries of the three operands: tileCore of the masked scores
  of its row and of its value column.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.AttnTile

open Idealize.ShloMosaic Idealize.ShloMosaic.ValueIdx

/-- Softmax-weighted combination over n keys of scores sc and values v: the weighted sum divided once by
    the normaliser. -/
def tileCore (n : Nat) (sc v : Fin n → EReal) : EReal :=
  let M : EReal := Finset.univ.sup sc
  let L : EReal := ∑ t : Fin n, Ideal.exp (sc t - M)
  Ideal.div (∑ t : Fin n, Ideal.exp (sc t - M) * v t) L

/-! ## Layout operations on a column of row statistics -/

section Layout
variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along rows to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products -/

/-- Rows of A against rows of B (both contracted on their last axis), into a zero accumulator: at (a, b) the sum
    over the contracted coordinate. -/
theorem matmulT_apply {m k n : ℕ} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply, ← Equiv.sum_comp (contrEquiv1 _ k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- Rows of A against columns of B, into a zero accumulator: at (a, b) the sum over the contracted coordinate. -/
theorem matmulP_apply {m k n : ℕ} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply, ← Equiv.sum_comp (contrEquiv1 _ k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The two row reductions -/

/-- The word of -∞ denotes the least extended real. -/
theorem ofBits_neg_inf : Ideal.ofBits .f32 0xFF800000#32 = ⊥ := by
  simp [Ideal.ofBits, Ideal.ieee]

/-- A row sum: at row r the sum over the columns. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ t : Fin b, src (ix2 r t) := by
  refine (Ideal.multiReduction_add_single src 0x00000000#32 h hφ hacc (ix1 r)).trans ?_
  show ∑ t : Fin b, src (h.lift (ix1 r) t) = _
  refine Finset.sum_congr rfl fun t _ => congrArg src ?_
  funext ax; apply Fin.ext
  match ax with
  | ⟨0, _⟩ => rfl
  | ⟨1, _⟩ => rfl

/-- A row maximum from -∞: at row r the supremum over the columns. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun t : Fin b => src (ix2 r t) := by
  refine (Ideal.multiReduction_maximumf_single src 0xFF800000#32 h hφ hacc (ix1 r)).trans ?_
  have e : (fun t : Fin b => src (h.lift (ix1 r) t)) = fun t : Fin b => src (ix2 r t) := by
    funext t
    refine congrArg src ?_
    funext ax; apply Fin.ext
    match ax with
    | ⟨0, _⟩ => rfl
    | ⟨1, _⟩ => rfl
  have key : ∀ f : Fin b → EReal, (Finset.univ : Finset (Fin b)).fold max ⊥ f = Finset.univ.sup f := fun _ => rfl
  exact ((congrArg (fun x : EReal => (Finset.univ : Finset (Fin b)).fold max x (fun t : Fin b => src (h.lift (ix1 r) t)))
      ofBits_neg_inf).trans
    (congrArg (fun f : Fin b → EReal => (Finset.univ : Finset (Fin b)).fold max ⊥ f) e)).trans (key _)

/-! ## The tile -/

section Tile

variable (n : ℕ)
  (hq : (⟨3, ![1, 512, 64]⟩ : Shape).ShapeCasts ⟨2, ![512, 64]⟩)
  (hk : (⟨3, ![1, n, 64]⟩ : Shape).ShapeCasts ⟨2, ![n, 64]⟩)
  (wT : DotDims.WF ⟨2, ![512, 64]⟩ ⟨2, ![n, 64]⟩ ⟨2, ![512, n]⟩ [1] [1] [0] [0] [] [])
  (hred : (⟨2, ![512, n]⟩ : Shape).Reduces [1] ⟨1, ![512]⟩)
  (hcol : (⟨1, ![512]⟩ : Shape).ShapeCasts ⟨2, ![512, 1]⟩)
  (hbn : (⟨2, ![512, 1]⟩ : Shape).Broadcasts ⟨2, ![512, n]⟩)
  (hlt : FTy.bits .bf16 < FTy.bits .f32)
  (wP : DotDims.WF ⟨2, ![512, n]⟩ ⟨2, ![n, 64]⟩ ⟨2, ![512, 64]⟩ [1] [0] [0] [1] [] [])
  (hb64 : (⟨2, ![512, 1]⟩ : Shape).Broadcasts ⟨2, ![512, 64]⟩)
  (hout : (⟨2, ![512, 64]⟩ : Shape).ShapeCasts ⟨3, ![1, 512, 64]⟩)

/-- The masked scores: the product of the query rows with the key rows where the mask holds, neg elsewhere. -/
def scores (neg : Ideal .f32) (mask : IVec ⟨2, ![512, n]⟩ 1)
    (q : FVec Ideal ⟨3, ![1, 512, 64]⟩ .bf16) (k : FVec Ideal ⟨3, ![1, n, 64]⟩ .bf16) : FVec Ideal ⟨2, ![512, n]⟩ .f32 :=
  select mask
    (matmul (⟨[1], [1], [0], [0], [], [], wT⟩ : DotDims ⟨2, ![512, 64]⟩ ⟨2, ![n, 64]⟩ ⟨2, ![512, n]⟩) none
      (shapeCast ⟨2, ![512, 64]⟩ q hq : FVec Ideal ⟨2, ![512, 64]⟩ .bf16) (shapeCast ⟨2, ![n, 64]⟩ k hk : FVec Ideal ⟨2, ![n, 64]⟩ .bf16) (constant ⟨2, ![512, n]⟩ .f32 0x00000000#32))
    (broadcast ⟨2, ![512, n]⟩ neg)

/-- The unnormalised weights: the exponential of each score less its row's maximum. -/
def weights (s : FVec Ideal ⟨2, ![512, n]⟩ .f32) : FVec Ideal ⟨2, ![512, n]⟩ .f32 :=
  exp (subf s (broadcastTo ⟨2, ![512, n]⟩
    (shapeCast ⟨2, ![512, 1]⟩ (multiReduction .maximumf [1] ⟨1, ![512]⟩ s 0xFF800000#32 hred (.inl rfl) rfl) hcol) hbn))

/-- The tile's result from the weights p: the weighted sum of the value rows over the row sum of the weights. -/
def combine (p : FVec Ideal ⟨2, ![512, n]⟩ .f32) (v : FVec Ideal ⟨3, ![1, n, 64]⟩ .bf16) : FVec Ideal ⟨3, ![1, 512, 64]⟩ .bf16 :=
  shapeCast ⟨3, ![1, 512, 64]⟩
    (truncf .bf16
      (divf
        (matmul (⟨[1], [0], [0], [1], [], [], wP⟩ : DotDims ⟨2, ![512, n]⟩ ⟨2, ![n, 64]⟩ ⟨2, ![512, 64]⟩) none
          (truncf .bf16 p hlt : FVec Ideal ⟨2, ![512, n]⟩ .bf16) (shapeCast ⟨2, ![n, 64]⟩ v hk : FVec Ideal ⟨2, ![n, 64]⟩ .bf16) (constant ⟨2, ![512, 64]⟩ .f32 0x00000000#32))
        (broadcastTo ⟨2, ![512, 64]⟩
          (shapeCast ⟨2, ![512, 1]⟩ (multiReduction .add [1] ⟨1, ![512]⟩ p 0x00000000#32 hred (.inl rfl) rfl) hcol) hb64))
      hlt)
    hout

/-- The whole tile. -/
def headTile (neg : Ideal .f32) (mask : IVec ⟨2, ![512, n]⟩ 1)
    (q : FVec Ideal ⟨3, ![1, 512, 64]⟩ .bf16) (k v : FVec Ideal ⟨3, ![1, n, 64]⟩ .bf16) : FVec Ideal ⟨3, ![1, 512, 64]⟩ .bf16 :=
  combine n hk hred hcol hlt wP hb64 hout (weights n hred hcol hbn (scores n hq hk wT neg mask q k)) v

theorem scores_apply (neg : Ideal .f32) (mask : IVec ⟨2, ![512, n]⟩ 1)
    (q : FVec Ideal ⟨3, ![1, 512, 64]⟩ .bf16) (k : FVec Ideal ⟨3, ![1, n, 64]⟩ .bf16) (r : Fin 512) (t : Fin n) :
    scores n hq hk wT neg mask q k (ix2 r t)
      = Scalar.select (mask (ix2 r t)) (∑ e : Fin 64, q (ix3 (0 : Fin 1) r e) * k (ix3 (0 : Fin 1) t e)) neg := by
  show Scalar.select (mask (ix2 r t))
      (FloatOps.matmul (⟨[1], [1], [0], [0], [], [], wT⟩ : DotDims ⟨2, ![512, 64]⟩ ⟨2, ![n, 64]⟩ ⟨2, ![512, n]⟩) none
        (shapeCast ⟨2, ![512, 64]⟩ q hq : FVec Ideal ⟨2, ![512, 64]⟩ .bf16) (shapeCast ⟨2, ![n, 64]⟩ k hk : FVec Ideal ⟨2, ![n, 64]⟩ .bf16) (constant ⟨2, ![512, n]⟩ .f32 0x00000000#32) (ix2 r t))
      neg = _
  rw [matmulT_apply]
  refine congrArg (fun x => Scalar.select (mask (ix2 r t)) x neg) (Finset.sum_congr rfl fun e _ => ?_)
  rw [shapeCast_1ab_ab_apply, shapeCast_1ab_ab_apply]

theorem weights_apply (s : FVec Ideal ⟨2, ![512, n]⟩ .f32) (r : Fin 512) (t : Fin n) :
    weights n hred hcol hbn s (ix2 r t) = Ideal.exp (s (ix2 r t) - Finset.univ.sup fun t' : Fin n => s (ix2 r t')) := by
  show Ideal.exp (s (ix2 r t) - broadcastTo ⟨2, ![512, n]⟩
    (shapeCast ⟨2, ![512, 1]⟩ (multiReduction .maximumf [1] ⟨1, ![512]⟩ s 0xFF800000#32 hred (.inl rfl) rfl) hcol) hbn (ix2 r t)) = _
  rw [broadcastTo_a1_ab_apply, shapeCast_a_a1_apply]
  exact congrArg (fun x => Ideal.exp (s (ix2 r t) - x)) (rowMax_apply s hred _ _ r)

theorem combine_apply (p : FVec Ideal ⟨2, ![512, n]⟩ .f32) (v : FVec Ideal ⟨3, ![1, n, 64]⟩ .bf16)
    (u : Fin 1) (r : Fin 512) (d : Fin 64) :
    combine n hk hred hcol hlt wP hb64 hout p v (ix3 u r d)
      = Ideal.div (∑ t : Fin n, p (ix2 r t) * v (ix3 (0 : Fin 1) t d)) (∑ t : Fin n, p (ix2 r t)) := by
  unfold combine
  rw [shapeCast_ab_1ab_apply, truncf_apply, divf_apply]
  unfold matmul
  rw [matmulP_apply, broadcastTo_a1_ab_apply, shapeCast_a_a1_apply]
  refine congrArg₂ Ideal.div (Finset.sum_congr rfl fun t _ => ?_) (rowSum_apply p hred _ _ r)
  rw [truncf_apply, shapeCast_1ab_ab_apply]

/-- An entry of the tile: tileCore of its row's masked scores and its value column. -/
theorem headTile_apply (neg : Ideal .f32) (mask : IVec ⟨2, ![512, n]⟩ 1)
    (q : FVec Ideal ⟨3, ![1, 512, 64]⟩ .bf16) (k v : FVec Ideal ⟨3, ![1, n, 64]⟩ .bf16)
    (u : Fin 1) (r : Fin 512) (d : Fin 64) :
    headTile n hq hk wT hred hcol hbn hlt wP hb64 hout neg mask q k v (ix3 u r d)
      = tileCore n
          (fun t => Scalar.select (mask (ix2 r t)) (∑ e : Fin 64, q (ix3 (0 : Fin 1) r e) * k (ix3 (0 : Fin 1) t e)) neg)
          (fun t => v (ix3 (0 : Fin 1) t d)) := by
  unfold headTile
  rw [combine_apply]
  simp only [weights_apply, scores_apply]
  rfl

end Tile

end Cert.AttnTile

end
-- ==== Proof.AttnPiece.lean ====
/-
  One store of the attention region against the tiled specification.

  The region's output block is [1, 2048, 1024]. The store for query tile qi (rows 512 qi .. 512 qi + 511) and head h
  (columns 64 h .. 64 h + 63) holds the tile computation over the key prefix of length 512 (qi + 1), with the causal
  mask "key t is admitted for row r iff t ≤ 512 qi + r". Entry (r, d) of that tile is the specification's tiled
  attention at position 512 qi + r and column 64 h + d.
-/
import Idealize.ShloMosaic.Lib.Affine
import proofs.«129124_j25151328485592_2_alg».proof.Proof.Spec
import proofs.«129124_j25151328485592_2_alg».proof.Proof.AttnTile

noncomputable section

open scoped BigOperators

namespace Cert.AttnTile

open Idealize.ShloMosaic Idealize.ShloMosaic.ValueIdx

/-! ## The causal mask -/

/-- The mask of a tile whose first query sits at position off: the comparison "column ≤ off + row" of the two
    coordinate arrays. -/
def causalMask (n : ℕ) (h0 : (⟨2, ![512, n]⟩ : Shape).Iotas .tc 32 [0]) (h1 : (⟨2, ![512, n]⟩ : Shape).Iotas .tc 32 [1])
    (off : BitVec 32) : IVec ⟨2, ![512, n]⟩ 1 :=
  cmpi .sle (iota .tc ⟨2, ![512, n]⟩ 32 [1] h1)
    (addi (broadcast ⟨2, ![512, n]⟩ off) (iota .tc ⟨2, ![512, n]⟩ 32 [0] h0))

/-- A natural number below 2^31 read back signed from its 32-bit word. -/
theorem toInt_ofNat_small (m : ℕ) (h : m < 2 ^ 31) : (BitVec.ofNat 32 m).toInt = (m : Int) := by
  rw [BitVec.toInt_eq_toNat_cond, BitVec.toNat_ofNat, Nat.mod_eq_of_lt (by omega), if_pos (by omega)]

/-- A select on the mask is the "if" on the positions. -/
theorem select_causalMask {α : Type} (n a : ℕ) (ha : a ≤ 1536) (hn : n ≤ 2048)
    (h0 : (⟨2, ![512, n]⟩ : Shape).Iotas .tc 32 [0]) (h1 : (⟨2, ![512, n]⟩ : Shape).Iotas .tc 32 [1])
    (r : Fin 512) (t : Fin n) (A B : α) :
    Scalar.select (causalMask n h0 h1 (BitVec.ofNat 32 a) (ix2 r t)) A B = if t.val ≤ a + r.val then A else B := by
  have e : causalMask n h0 h1 (BitVec.ofNat 32 a) (ix2 r t)
      = IntOp.cmpi .sle (BitVec.ofNat 32 t.val) (BitVec.ofNat 32 (a + r.val)) := by
    show IntOp.cmpi .sle (iota .tc ⟨2, ![512, n]⟩ 32 [1] h1 (ix2 r t))
      (IntOp.addi (BitVec.ofNat 32 a) (iota .tc ⟨2, ![512, n]⟩ 32 [0] h0 (ix2 r t))) = _
    rw [iota_single_apply, iota_single_apply, BitVec.ofNat_add]
    rfl
  have ht := t.isLt
  have hr := r.isLt
  rw [e]
  by_cases hle : t.val ≤ a + r.val
  · have h1' : IntOp.cmpi .sle (BitVec.ofNat 32 t.val) (BitVec.ofNat 32 (a + r.val)) = 1#1 :=
      IntOp.cmpi_sle.mpr (by
        rw [toInt_ofNat_small _ (by omega), toInt_ofNat_small _ (by omega)]; exact_mod_cast hle)
    rw [if_pos hle, h1']
    exact select_one A B
  · have h0' : IntOp.cmpi .sle (BitVec.ofNat 32 t.val) (BitVec.ofNat 32 (a + r.val)) = 0#1 :=
      eq_zero_of_ne_one fun h1' => hle (by
        have := IntOp.cmpi_sle.mp h1'
        rw [toInt_ofNat_small _ (by omega), toInt_ofNat_small _ (by omega)] at this; exact_mod_cast this)
    rw [if_neg hle, h0']
    exact select_zero A B

/-! ## The specification's tiled attention as tileCore -/

open Cert.Attn in
/-- With the tile end named, the tiled attention at (s, c) is tileCore of the n masked scores and value entries. -/
theorem attnKerCore_eq_tileCore (Q K V : Mat) (s : Fin 2048) (c : Fin 1024) (n : ℕ) (hn : n ≤ 2048) (e : tileEnd s = n) :
    attnKerCore (tileEnd s) (tileEnd_le s) Q K V s c
      = tileCore n (fun t => scoreKer Q K (headOf c) s (Fin.castLE hn t)) (fun t => V (Fin.castLE hn t) c) := by
  subst e; rfl

/-- The tiled form's attention on one batch entry's block [1, 2048, 1024], index by index. -/
def G (x0 x1 x2 : Vec Ideal ⟨3, ![1, 2048, 1024]⟩ .bf16) : (⟨3, ![1, 2048, 1024]⟩ : Shape).Idx → EReal := fun i =>
  Cert.Attn.attnKerCore (Cert.Attn.tileEnd (i 1)) (Cert.Attn.tileEnd_le (i 1))
    (fun s c => x0 (ix3 (0 : Fin 1) s c)) (fun s c => x1 (ix3 (0 : Fin 1) s c)) (fun s c => x2 (ix3 (0 : Fin 1) s c)) (i 1) (i 2)

/-! ## One store -/

section Piece

variable (n : ℕ)
  (hq : (⟨3, ![1, 512, 64]⟩ : Shape).ShapeCasts ⟨2, ![512, 64]⟩)
  (hk : (⟨3, ![1, n, 64]⟩ : Shape).ShapeCasts ⟨2, ![n, 64]⟩)
  (wT : DotDims.WF ⟨2, ![512, 64]⟩ ⟨2, ![n, 64]⟩ ⟨2, ![512, n]⟩ [1] [1] [0] [0] [] [])
  (hred : (⟨2, ![512, n]⟩ : Shape).Reduces [1] ⟨1, ![512]⟩)
  (hcol : (⟨1, ![512]⟩ : Shape).ShapeCasts ⟨2, ![512, 1]⟩)
  (hbn : (⟨2, ![512, 1]⟩ : Shape).Broadcasts ⟨2, ![512, n]⟩)
  (hlt : FTy.bits .bf16 < FTy.bits .f32)
  (wP : DotDims.WF ⟨2, ![512, n]⟩ ⟨2, ![n, 64]⟩ ⟨2, ![512, 64]⟩ [1] [0] [0] [1] [] [])
  (hb64 : (⟨2, ![512, 1]⟩ : Shape).Broadcasts ⟨2, ![512, 64]⟩)
  (hout : (⟨2, ![512, 64]⟩ : Shape).ShapeCasts ⟨3, ![1, 512, 64]⟩)
  (h0 : (⟨2, ![512, n]⟩ : Shape).Iotas .tc 32 [0]) (h1 : (⟨2, ![512, n]⟩ : Shape).Iotas .tc 32 [1])

/-- The store of query tile qi and head h: the tile computation on the loaded query tile and key and value prefixes
    agrees, entry by entry, with the tiled specification under the store's rectangle. -/
theorem piece_eq (qi : Fin 4) (h : Fin 16) (a b : ℕ) (ha : a = 512 * qi.val) (hb : b = 64 * h.val) (hn : n = a + 512)
    (neg : Ideal .f32) (hneg : neg = ⊥)
    (inbq : ∀ ax, (![0, a, b] : Fin 3 → ℕ) ax + (![1, 512, 64] : Fin 3 → ℕ) ax ≤ (⟨3, ![1, 2048, 1024]⟩ : Shape).size ax)
    (inbk : ∀ ax, (![0, 0, b] : Fin 3 → ℕ) ax + (![1, n, 64] : Fin 3 → ℕ) ax ≤ (⟨3, ![1, 2048, 1024]⟩ : Shape).size ax)
    (x0 x1 x2 : Vec Ideal ⟨3, ![1, 2048, 1024]⟩ .bf16) (x : (⟨3, ![1, 512, 64]⟩ : Shape).Idx) :
    headTile n hq hk wT hred hcol hbn hlt wP hb64 hout neg (causalMask n h0 h1 (BitVec.ofNat 32 a))
        (View.ld x0 (Rect.unit (s := ⟨3, ![1, 2048, 1024]⟩) ![0, a, b] ![1, 512, 64] inbq))
        (View.ld x1 (Rect.unit (s := ⟨3, ![1, 2048, 1024]⟩) ![0, 0, b] ![1, n, 64] inbk))
        (View.ld x2 (Rect.unit (s := ⟨3, ![1, 2048, 1024]⟩) ![0, 0, b] ![1, n, 64] inbk)) x
      = G x0 x1 x2 ((Rect.unit (s := ⟨3, ![1, 2048, 1024]⟩) ![0, a, b] ![1, 512, 64] inbq).emb x) := by
  obtain ⟨u, r, d, rfl⟩ : ∃ (u : Fin 1) (r : Fin 512) (d : Fin 64), x = ix3 u r d := ⟨x 0, x 1, x 2, eq_ix3 x⟩
  have hqi := qi.isLt
  have hh := h.isLt
  have hr := r.isLt
  have hd := d.isLt
  have hn2 : n ≤ 2048 := by omega
  -- the position and column under the store's rectangle
  let s : Fin 2048 := ⟨a + r.val, by omega⟩
  let c : Fin 1024 := ⟨b + d.val, by omega⟩
  have hemb : (Rect.unit (s := ⟨3, ![1, 2048, 1024]⟩) ![0, a, b] ![1, 512, 64] inbq).emb (ix3 u r d) = ix3 (0 : Fin 1) s c := by
    funext ax; apply Fin.ext
    match ax with
    | ⟨0, _⟩ => show 0 + 1 * u.val = 0; omega
    | ⟨1, _⟩ => show a + 1 * r.val = a + r.val; omega
    | ⟨2, _⟩ => show b + 1 * d.val = b + d.val; omega
  have hend : Cert.Attn.tileEnd s = n := by
    show (a + r.val) / 512 * 512 + 512 = n
    omega
  have hhead : Cert.Attn.headOf c = h := Fin.ext (by show (b + d.val) / 64 = h.val; omega)
  rw [headTile_apply, hemb]
  show _ = Cert.Attn.attnKerCore (Cert.Attn.tileEnd s) (Cert.Attn.tileEnd_le s) _ _ _ s c
  rw [attnKerCore_eq_tileCore _ _ _ s c n hn2 hend, hhead]
  refine congrArg₂ (tileCore n) (funext fun t => ?_) (funext fun t => ?_)
  · -- the scores
    have ht := t.isLt
    rw [select_causalMask n a (by omega) hn2 h0 h1 r t, hneg]
    show _ = if t.val ≤ a + r.val then _ else ⊥
    refine if_congr Iff.rfl (Finset.sum_congr rfl fun e _ => ?_) rfl
    have he := e.isLt
    refine congrArg₂ (· * ·) (congrArg x0 ?_) (congrArg x1 ?_)
    · funext ax; apply Fin.ext
      match ax with
      | ⟨0, _⟩ => rfl
      | ⟨1, _⟩ => show a + 1 * r.val = a + r.val; omega
      | ⟨2, _⟩ => show b + 1 * e.val = 64 * h.val + e.val; omega
    · funext ax; apply Fin.ext
      match ax with
      | ⟨0, _⟩ => rfl
      | ⟨1, _⟩ => show 0 + 1 * t.val = t.val; omega
      | ⟨2, _⟩ => show b + 1 * e.val = 64 * h.val + e.val; omega
  · -- the values
    refine congrArg x2 ?_
    funext ax; apply Fin.ext
    match ax with
    | ⟨0, _⟩ => rfl
    | ⟨1, _⟩ => show 0 + 1 * t.val = t.val; omega
    | ⟨2, _⟩ => show b + 1 * d.val = b + d.val; omega

end Piece

end Cert.AttnTile

end
-- ==== Proof.AttnBody.lean ====
/-
  The attention region's output block, read at an index.

  The region's body leaves in its output block [1, 2048, 1024] the overlay of 64 stores, one per query tile qi
  (512 rows) and head h (64 columns). The value stored for (qi, h) is the softmax attention of the 512 queries
  of the tile against the keys 0 .. 512 (qi + 1) - 1 of that head, under the causal mask, divided once by the
  normaliser — whichever way the program's text groups the intermediate values, each of the 64 stored values
  unfolds to the same tile computation. The stores tile the block, so at every index (0, s, c) the block holds
  the specification's tiled attention at position s and column c.
-/
import proofs.«129124_j25151328485592_2_alg».proof.Proof.Gen.KernelIdeal.Frame
import proofs.«129124_j25151328485592_2_alg».proof.Proof.AttnPiece

set_option maxRecDepth 16384

noncomputable section

namespace Cert.KernelIdeal.AttnBody

open Idealize.ShloMosaic Idealize.ShloMosaic.ValueIdx Cert.KernelIdeal Cert.KernelIdeal.Gen Cert.AttnTile

/-- The masking constant denotes the least extended real. -/
theorem neg_big : Named.named (F := Ideal) Cert.KernelIdeal.κ "neg_big" (φ := .f32) 0xFF333332#32 = (⊥ : EReal) :=
  IdealRules.named_const.ideal_named_scalar _ _ _ _ rfl

/-! ## A store of each query tile, at any head

The generic statement about one store, at the four key-prefix lengths the region uses, with the shape facts of
each length filled in. -/

/-- Query tile 0 (rows 0 to 511, keys 0 to 511) at any head. -/
theorem tile512 (h : Fin 16) (b : ℕ) (hb : b = 64 * h.val)
    (inbq : ∀ ax, (![0, 0, b] : Fin 3 → ℕ) ax + S1x512x64.size ax ≤ S1x2048x1024.size ax)
    (inbk : ∀ ax, (![0, 0, b] : Fin 3 → ℕ) ax + S1x512x64.size ax ≤ S1x2048x1024.size ax)
    (x0 x1 x2 : Vec Ideal S1x2048x1024 .bf16) (x : S1x512x64.Idx) :
    headTile 512 shapeCasts_S1x512x64_S512x64 shapeCasts_S1x512x64_S512x64 dot_S512x64_S512x64_S512x512_1_1_0_0_n_n_wf
    reduces_S512x512_S512 shapeCasts_S512_S512x1 broadcasts_S512x1_S512x512 bitsLt_bf16_f32
    dot_S512x512_S512x64_S512x64_1_0_0_1_n_n_wf broadcasts_S512x1_S512x64 shapeCasts_S512x64_S1x512x64
        (Named.named κ "neg_big" 0xFF333332#32) (causalMask 512 iota_S512x512_d0_w32 iota_S512x512_d1_w32 0#32)
        (View.ld x0 (Rect.unit (s := S1x2048x1024) ![0, 0, b] S1x512x64.size inbq))
        (View.ld x1 (Rect.unit (s := S1x2048x1024) ![0, 0, b] S1x512x64.size inbk))
        (View.ld x2 (Rect.unit (s := S1x2048x1024) ![0, 0, b] S1x512x64.size inbk)) x
      = G x0 x1 x2 ((Rect.unit (s := S1x2048x1024) ![0, 0, b] S1x512x64.size inbq).emb x) :=
  piece_eq 512 shapeCasts_S1x512x64_S512x64 shapeCasts_S1x512x64_S512x64 dot_S512x64_S512x64_S512x512_1_1_0_0_n_n_wf
    reduces_S512x512_S512 shapeCasts_S512_S512x1 broadcasts_S512x1_S512x512 bitsLt_bf16_f32
    dot_S512x512_S512x64_S512x64_1_0_0_1_n_n_wf broadcasts_S512x1_S512x64 shapeCasts_S512x64_S1x512x64
    iota_S512x512_d0_w32 iota_S512x512_d1_w32 ⟨0, by decide⟩ h 0 b rfl hb rfl _ neg_big inbq inbk x0 x1 x2 x

/-- Query tile 1 (rows 512 to 1023, keys 0 to 1023) at any head. -/
theorem tile1024 (h : Fin 16) (b : ℕ) (hb : b = 64 * h.val)
    (inbq : ∀ ax, (![0, 512, b] : Fin 3 → ℕ) ax + S1x512x64.size ax ≤ S1x2048x1024.size ax)
    (inbk : ∀ ax, (![0, 0, b] : Fin 3 → ℕ) ax + S1x1024x64.size ax ≤ S1x2048x1024.size ax)
    (x0 x1 x2 : Vec Ideal S1x2048x1024 .bf16) (x : S1x512x64.Idx) :
    headTile 1024 shapeCasts_S1x512x64_S512x64 shapeCasts_S1x1024x64_S1024x64 dot_S512x64_S1024x64_S512x1024_1_1_0_0_n_n_wf
    reduces_S512x1024_S512 shapeCasts_S512_S512x1 broadcasts_S512x1_S512x1024 bitsLt_bf16_f32
    dot_S512x1024_S1024x64_S512x64_1_0_0_1_n_n_wf broadcasts_S512x1_S512x64 shapeCasts_S512x64_S1x512x64
        (Named.named κ "neg_big" 0xFF333332#32) (causalMask 1024 iota_S512x1024_d0_w32 iota_S512x1024_d1_w32 512#32)
        (View.ld x0 (Rect.unit (s := S1x2048x1024) ![0, 512, b] S1x512x64.size inbq))
        (View.ld x1 (Rect.unit (s := S1x2048x1024) ![0, 0, b] S1x1024x64.size inbk))
        (View.ld x2 (Rect.unit (s := S1x2048x1024) ![0, 0, b] S1x1024x64.size inbk)) x
      = G x0 x1 x2 ((Rect.unit (s := S1x2048x1024) ![0, 512, b] S1x512x64.size inbq).emb x) :=
  piece_eq 1024 shapeCasts_S1x512x64_S512x64 shapeCasts_S1x1024x64_S1024x64 dot_S512x64_S1024x64_S512x1024_1_1_0_0_n_n_wf
    reduces_S512x1024_S512 shapeCasts_S512_S512x1 broadcasts_S512x1_S512x1024 bitsLt_bf16_f32
    dot_S512x1024_S1024x64_S512x64_1_0_0_1_n_n_wf broadcasts_S512x1_S512x64 shapeCasts_S512x64_S1x512x64
    iota_S512x1024_d0_w32 iota_S512x1024_d1_w32 ⟨1, by decide⟩ h 512 b rfl hb rfl _ neg_big inbq inbk x0 x1 x2 x

/-- Query tile 2 (rows 1024 to 1535, keys 0 to 1535) at any head. -/
theorem tile1536 (h : Fin 16) (b : ℕ) (hb : b = 64 * h.val)
    (inbq : ∀ ax, (![0, 1024, b] : Fin 3 → ℕ) ax + S1x512x64.size ax ≤ S1x2048x1024.size ax)
    (inbk : ∀ ax, (![0, 0, b] : Fin 3 → ℕ) ax + S1x1536x64.size ax ≤ S1x2048x1024.size ax)
    (x0 x1 x2 : Vec Ideal S1x2048x1024 .bf16) (x : S1x512x64.Idx) :
    headTile 1536 shapeCasts_S1x512x64_S512x64 shapeCasts_S1x1536x64_S1536x64 dot_S512x64_S1536x64_S512x1536_1_1_0_0_n_n_wf
    reduces_S512x1536_S512 shapeCasts_S512_S512x1 broadcasts_S512x1_S512x1536 bitsLt_bf16_f32
    dot_S512x1536_S1536x64_S512x64_1_0_0_1_n_n_wf broadcasts_S512x1_S512x64 shapeCasts_S512x64_S1x512x64
        (Named.named κ "neg_big" 0xFF333332#32) (causalMask 1536 iota_S512x1536_d0_w32 iota_S512x1536_d1_w32 1024#32)
        (View.ld x0 (Rect.unit (s := S1x2048x1024) ![0, 1024, b] S1x512x64.size inbq))
        (View.ld x1 (Rect.unit (s := S1x2048x1024) ![0, 0, b] S1x1536x64.size inbk))
        (View.ld x2 (Rect.unit (s := S1x2048x1024) ![0, 0, b] S1x1536x64.size inbk)) x
      = G x0 x1 x2 ((Rect.unit (s := S1x2048x1024) ![0, 1024, b] S1x512x64.size inbq).emb x) :=
  piece_eq 1536 shapeCasts_S1x512x64_S512x64 shapeCasts_S1x1536x64_S1536x64 dot_S512x64_S1536x64_S512x1536_1_1_0_0_n_n_wf
    reduces_S512x1536_S512 shapeCasts_S512_S512x1 broadcasts_S512x1_S512x1536 bitsLt_bf16_f32
    dot_S512x1536_S1536x64_S512x64_1_0_0_1_n_n_wf broadcasts_S512x1_S512x64 shapeCasts_S512x64_S1x512x64
    iota_S512x1536_d0_w32 iota_S512x1536_d1_w32 ⟨2, by decide⟩ h 1024 b rfl hb rfl _ neg_big inbq inbk x0 x1 x2 x

/-- Query tile 3 (rows 1536 to 2047, keys 0 to 2047) at any head. -/
theorem tile2048 (h : Fin 16) (b : ℕ) (hb : b = 64 * h.val)
    (inbq : ∀ ax, (![0, 1536, b] : Fin 3 → ℕ) ax + S1x512x64.size ax ≤ S1x2048x1024.size ax)
    (inbk : ∀ ax, (![0, 0, b] : Fin 3 → ℕ) ax + S1x2048x64.size ax ≤ S1x2048x1024.size ax)
    (x0 x1 x2 : Vec Ideal S1x2048x1024 .bf16) (x : S1x512x64.Idx) :
    headTile 2048 shapeCasts_S1x512x64_S512x64 shapeCasts_S1x2048x64_S2048x64 dot_S512x64_S2048x64_S512x2048_1_1_0_0_n_n_wf
    reduces_S512x2048_S512 shapeCasts_S512_S512x1 broadcasts_S512x1_S512x2048 bitsLt_bf16_f32
    dot_S512x2048_S2048x64_S512x64_1_0_0_1_n_n_wf broadcasts_S512x1_S512x64 shapeCasts_S512x64_S1x512x64
        (Named.named κ "neg_big" 0xFF333332#32) (causalMask 2048 iota_S512x2048_d0_w32 iota_S512x2048_d1_w32 1536#32)
        (View.ld x0 (Rect.unit (s := S1x2048x1024) ![0, 1536, b] S1x512x64.size inbq))
        (View.ld x1 (Rect.unit (s := S1x2048x1024) ![0, 0, b] S1x2048x64.size inbk))
        (View.ld x2 (Rect.unit (s := S1x2048x1024) ![0, 0, b] S1x2048x64.size inbk)) x
      = G x0 x1 x2 ((Rect.unit (s := S1x2048x1024) ![0, 1536, b] S1x512x64.size inbq).emb x) :=
  piece_eq 2048 shapeCasts_S1x512x64_S512x64 shapeCasts_S1x2048x64_S2048x64 dot_S512x64_S2048x64_S512x2048_1_1_0_0_n_n_wf
    reduces_S512x2048_S512 shapeCasts_S512_S512x1 broadcasts_S512x1_S512x2048 bitsLt_bf16_f32
    dot_S512x2048_S2048x64_S512x64_1_0_0_1_n_n_wf broadcasts_S512x1_S512x64 shapeCasts_S512x64_S1x512x64
    iota_S512x2048_d0_w32 iota_S512x2048_d1_w32 ⟨3, by decide⟩ h 1536 b rfl hb rfl _ neg_big inbq inbk x0 x1 x2 x

/-! ## The block -/

set_option maxHeartbeats 4000000 in
/-- Every one of the 64 stored values is the tile computation for its query tile and head, so the overlay of the
    stores is the tiled attention wherever a store covers, which is everywhere. -/
theorem out1_3_apply (x0 x1 x2 : Vec Ideal S1x2048x1024 .bf16) (s : Fin 2048) (c : Fin 1024) :
    out1_3 (F := Ideal) x0 x1 x2 (ix3 (0 : Fin 1) s c)
      = Cert.Attn.attnKerCore (Cert.Attn.tileEnd s) (Cert.Attn.tileEnd_le s)
          (fun s c => x0 (ix3 (0 : Fin 1) s c)) (fun s c => x1 (ix3 (0 : Fin 1) s c)) (fun s c => x2 (ix3 (0 : Fin 1) s c)) s c := by
  unfold out1_3
  refine (View.canon_apply_of_pieces (G x0 x1 x2) _ ?_ (ix3 (0 : Fin 1) s c)
    (cover1_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix3 (0 : Fin 1) s c))).trans rfl
  refine List.forall_mem_cons.2 ⟨fun x => tile2048 ⟨15, by decide⟩ 960 rfl _ _ x0 x1 x2 x, ?_⟩
  refine List.forall_mem_cons.2 ⟨fun x => tile2048 ⟨14, by decide⟩ 896 rfl _ _ x0 x1 x2 x, ?_⟩
  refine List.forall_mem_cons.2 ⟨fun x => tile2048 ⟨13, by decide⟩ 832 rfl _ _ x0 x1 x2 x, ?_⟩
  refine List.forall_mem_cons.2 ⟨fun x => tile2048 ⟨12, by decide⟩ 768 rfl _ _ x0 x1 x2 x, ?_⟩
  refine List.forall_mem_cons.2 ⟨fun x => tile2048 ⟨11, by decide⟩ 704 rfl _ _ x0 x1 x2 x, ?_⟩
  refine List.forall_mem_cons.2 ⟨fun x => tile2048 ⟨10, by decide⟩ 640 rfl _ _ x0 x1 x2 x, ?_⟩
  refine List.forall_mem_cons.2 ⟨fun x => tile2048 ⟨9, by decide⟩ 576 rfl _ _ x0 x1 x2 x, ?_⟩
  refine List.forall_mem_cons.2 ⟨fun x => tile2048 ⟨8, by decide⟩ 512 rfl _ _ x0 x1 x2 x, ?_⟩
  refine List.forall_mem_cons.2 ⟨fun x => tile2048 ⟨7, by decide⟩ 448 rfl _ _ x0 x1 x2 x, ?_⟩
  refine List.forall_mem_cons.2 ⟨fun x => tile2048 ⟨6, by decide⟩ 384 rfl _ _ x0 x1 x2 x, ?_⟩
  refine List.forall_mem_cons.2 ⟨fun x => tile2048 ⟨5, by decide⟩ 320 rfl _ _ x0 x1 x2 x, ?_⟩
  refine List.forall_mem_cons.2 ⟨fun x => tile2048 ⟨4, by decide⟩ 256 rfl _ _ x0 x1 x2 x, ?_⟩
  refine List.forall_mem_cons.2 ⟨fun x => tile2048 ⟨3, by decide⟩ 192 rfl _ _ x0 x1 x2 x, ?_⟩
  refine List.forall_mem_cons.2 ⟨fun x => tile2048 ⟨2, by decide⟩ 128 rfl _ _ x0 x1 x2 x, ?_⟩
  refine List.forall_mem_cons.2 ⟨fun x => tile2048 ⟨1, by decide⟩ 64 rfl _ _ x0 x1 x2 x, ?_⟩
  refine List.forall_mem_cons.2 ⟨fun x => tile2048 ⟨0, by decide⟩ 0 rfl _ _ x0 x1 x2 x, ?_⟩
  refine List.forall_mem_cons.2 ⟨fun x => tile1536 ⟨15, by decide⟩ 960 rfl _ _ x0 x1 x2 x, ?_⟩
  refine List.forall_mem_cons.2 ⟨fun x => tile1536 ⟨14, by decide⟩ 896 rfl _ _ x0 x1 x2 x, ?_⟩
  refine List.forall_mem_cons.2 ⟨fun x => tile1536 ⟨13, by decide⟩ 832 rfl _ _ x0 x1 x2 x, ?_⟩
  refine List.forall_mem_cons.2 ⟨fun x => tile1536 ⟨12, by decide⟩ 768 rfl _ _ x0 x1 x2 x, ?_⟩
  refine List.forall_mem_cons.2 ⟨fun x => tile1536 ⟨11, by decide⟩ 704 rfl _ _ x0 x1 x2 x, ?_⟩
  refine List.forall_mem_cons.2 ⟨fun x => tile1536 ⟨10, by decide⟩ 640 rfl _ _ x0 x1 x2 x, ?_⟩
  refine List.forall_mem_cons.2 ⟨fun x => tile1536 ⟨9, by decide⟩ 576 rfl _ _ x0 x1 x2 x, ?_⟩
  refine List.forall_mem_cons.2 ⟨fun x => tile1536 ⟨8, by decide⟩ 512 rfl _ _ x0 x1 x2 x, ?_⟩
  refine List.forall_mem_cons.2 ⟨fun x => tile1536 ⟨7, by decide⟩ 448 rfl _ _ x0 x1 x2 x, ?_⟩
  refine List.forall_mem_cons.2 ⟨fun x => tile1536 ⟨6, by decide⟩ 384 rfl _ _ x0 x1 x2 x, ?_⟩
  refine List.forall_mem_cons.2 ⟨fun x => tile1536 ⟨5, by decide⟩ 320 rfl _ _ x0 x1 x2 x, ?_⟩
  refine List.forall_mem_cons.2 ⟨fun x => tile1536 ⟨4, by decide⟩ 256 rfl _ _ x0 x1 x2 x, ?_⟩
  refine List.forall_mem_cons.2 ⟨fun x => tile1536 ⟨3, by decide⟩ 192 rfl _ _ x0 x1 x2 x, ?_⟩
  refine List.forall_mem_cons.2 ⟨fun x => tile1536 ⟨2, by decide⟩ 128 rfl _ _ x0 x1 x2 x, ?_⟩
  refine List.forall_mem_cons.2 ⟨fun x => tile1536 ⟨1, by decide⟩ 64 rfl _ _ x0 x1 x2 x, ?_⟩
  refine List.forall_mem_cons.2 ⟨fun x => tile1536 ⟨0, by decide⟩ 0 rfl _ _ x0 x1 x2 x, ?_⟩
  refine List.forall_mem_cons.2 ⟨fun x => tile1024 ⟨15, by decide⟩ 960 rfl _ _ x0 x1 x2 x, ?_⟩
  refine List.forall_mem_cons.2 ⟨fun x => tile1024 ⟨14, by decide⟩ 896 rfl _ _ x0 x1 x2 x, ?_⟩
  refine List.forall_mem_cons.2 ⟨fun x => tile1024 ⟨13, by decide⟩ 832 rfl _ _ x0 x1 x2 x, ?_⟩
  refine List.forall_mem_cons.2 ⟨fun x => tile1024 ⟨12, by decide⟩ 768 rfl _ _ x0 x1 x2 x, ?_⟩
  refine List.forall_mem_cons.2 ⟨fun x => tile1024 ⟨11, by decide⟩ 704 rfl _ _ x0 x1 x2 x, ?_⟩
  refine List.forall_mem_cons.2 ⟨fun x => tile1024 ⟨10, by decide⟩ 640 rfl _ _ x0 x1 x2 x, ?_⟩
  refine List.forall_mem_cons.2 ⟨fun x => tile1024 ⟨9, by decide⟩ 576 rfl _ _ x0 x1 x2 x, ?_⟩
  refine List.forall_mem_cons.2 ⟨fun x => tile1024 ⟨8, by decide⟩ 512 rfl _ _ x0 x1 x2 x, ?_⟩
  refine List.forall_mem_cons.2 ⟨fun x => tile1024 ⟨7, by decide⟩ 448 rfl _ _ x0 x1 x2 x, ?_⟩
  refine List.forall_mem_cons.2 ⟨fun x => tile1024 ⟨6, by decide⟩ 384 rfl _ _ x0 x1 x2 x, ?_⟩
  refine List.forall_mem_cons.2 ⟨fun x => tile1024 ⟨5, by decide⟩ 320 rfl _ _ x0 x1 x2 x, ?_⟩
  refine List.forall_mem_cons.2 ⟨fun x => tile1024 ⟨4, by decide⟩ 256 rfl _ _ x0 x1 x2 x, ?_⟩
  refine List.forall_mem_cons.2 ⟨fun x => tile1024 ⟨3, by decide⟩ 192 rfl _ _ x0 x1 x2 x, ?_⟩
  refine List.forall_mem_cons.2 ⟨fun x => tile1024 ⟨2, by decide⟩ 128 rfl _ _ x0 x1 x2 x, ?_⟩
  refine List.forall_mem_cons.2 ⟨fun x => tile1024 ⟨1, by decide⟩ 64 rfl _ _ x0 x1 x2 x, ?_⟩
  refine List.forall_mem_cons.2 ⟨fun x => tile1024 ⟨0, by decide⟩ 0 rfl _ _ x0 x1 x2 x, ?_⟩
  refine List.forall_mem_cons.2 ⟨fun x => tile512 ⟨15, by decide⟩ 960 rfl _ _ x0 x1 x2 x, ?_⟩
  refine List.forall_mem_cons.2 ⟨fun x => tile512 ⟨14, by decide⟩ 896 rfl _ _ x0 x1 x2 x, ?_⟩
  refine List.forall_mem_cons.2 ⟨fun x => tile512 ⟨13, by decide⟩ 832 rfl _ _ x0 x1 x2 x, ?_⟩
  refine List.forall_mem_cons.2 ⟨fun x => tile512 ⟨12, by decide⟩ 768 rfl _ _ x0 x1 x2 x, ?_⟩
  refine List.forall_mem_cons.2 ⟨fun x => tile512 ⟨11, by decide⟩ 704 rfl _ _ x0 x1 x2 x, ?_⟩
  refine List.forall_mem_cons.2 ⟨fun x => tile512 ⟨10, by decide⟩ 640 rfl _ _ x0 x1 x2 x, ?_⟩
  refine List.forall_mem_cons.2 ⟨fun x => tile512 ⟨9, by decide⟩ 576 rfl _ _ x0 x1 x2 x, ?_⟩
  refine List.forall_mem_cons.2 ⟨fun x => tile512 ⟨8, by decide⟩ 512 rfl _ _ x0 x1 x2 x, ?_⟩
  refine List.forall_mem_cons.2 ⟨fun x => tile512 ⟨7, by decide⟩ 448 rfl _ _ x0 x1 x2 x, ?_⟩
  refine List.forall_mem_cons.2 ⟨fun x => tile512 ⟨6, by decide⟩ 384 rfl _ _ x0 x1 x2 x, ?_⟩
  refine List.forall_mem_cons.2 ⟨fun x => tile512 ⟨5, by decide⟩ 320 rfl _ _ x0 x1 x2 x, ?_⟩
  refine List.forall_mem_cons.2 ⟨fun x => tile512 ⟨4, by decide⟩ 256 rfl _ _ x0 x1 x2 x, ?_⟩
  refine List.forall_mem_cons.2 ⟨fun x => tile512 ⟨3, by decide⟩ 192 rfl _ _ x0 x1 x2 x, ?_⟩
  refine List.forall_mem_cons.2 ⟨fun x => tile512 ⟨2, by decide⟩ 128 rfl _ _ x0 x1 x2 x, ?_⟩
  refine List.forall_mem_cons.2 ⟨fun x => tile512 ⟨1, by decide⟩ 64 rfl _ _ x0 x1 x2 x, ?_⟩
  refine List.forall_mem_cons.2 ⟨fun x => tile512 ⟨0, by decide⟩ 0 rfl _ _ x0 x1 x2 x, ?_⟩
  exact fun _ hp => absurd hp List.not_mem_nil

end Cert.KernelIdeal.AttnBody

end
-- ==== Proof.RefIsG.lean ====
/-
  The plain reference computes the specification's plain form.

  The reference is a straight line of array operations: three dense projections of the input, each reshaped to
  [batch, position, 16, 64] and transposed to [batch, head, position, 64]; the scores as a contraction over the 64
  head coordinates, times 1/8; a mask that replaces every entry whose key position exceeds its query position by −∞;
  a softmax along the keys written as a row maximum (folded from −∞), an exponential of the difference, a sum started
  at zero, and a division of every exponential by that sum; the contraction of the weights with the value rows over
  the keys; the inverse transpose and reshape; and the output projection.

  Each stage is read at an index and identified with the corresponding piece of `Cert.Attn`: a projection with
  `linear`; entry (b, h, s, d) of a head-split array with entry (b, s, 64 h + d) of the flat one; the masked scaled
  score with `scoreRef`; the row maximum with the supremum over all 2048 keys; the weighted sum with `attnRefCore`;
  the merged array with `attnRef` (column c is coordinate c % 64 of head c / 64); the whole with `Gref`.
-/
import proofs.«129124_j25151328485592_2_alg».proof.Proof.Gen.ReferenceIdeal.Read
import proofs.«129124_j25151328485592_2_alg».proof.Proof.Spec
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-! ## The projections -/

/-- A sum of products read at coordinate-built indices, plus the bias at the output column, is the dense projection `linear`. -/
theorem proj_eq (x : Act) (w : Wt) (β : Bias) (i : S2x2048x1024.Idx)
    (L : Fin 1024 → S2x2048x1024.Idx) (R : Fin 1024 → S1024x1024.Idx) (B : S1024.Idx)
    (hL : ∀ k, L k = ix3 (i 0) (i 1) k) (hR : ∀ k, R k = ix2 (i 2) k) (hB : B = ix1 (i 2)) :
    (∑ k : Fin 1024, x (L k) * w (R k)) + β B = linear x w β i := by
  unfold linear
  rw [hB]
  congr 1
  exact Finset.sum_congr rfl fun k _ => congrArg₂ (· * ·) (congrArg x (hL k)) (congrArg w (hR k))

theorem v3_eq (x : Act) (w : Wt) (β : Bias) : val_main_v3 (F := Ideal) x w β = linear x w β := by
  funext i
  rw [val_main_v3_apply, val_main_v0_apply, val_main_v2_apply, val_main_v1_apply]
  exact proj_eq x w β i _ _ _ (fun k => funext fun a => match a with | ⟨0, _⟩ => rfl | ⟨1, _⟩ => rfl | ⟨2, _⟩ => rfl)
    (fun k => funext fun a => match a with | ⟨0, _⟩ => rfl | ⟨1, _⟩ => rfl) (funext fun a => match a with | ⟨0, _⟩ => rfl)

theorem v9_eq (x : Act) (w : Wt) (β : Bias) : val_main_v9 (F := Ideal) x w β = linear x w β := by
  funext i
  rw [val_main_v9_apply, val_main_v6_apply, val_main_v8_apply, val_main_v7_apply]
  exact proj_eq x w β i _ _ _ (fun k => funext fun a => match a with | ⟨0, _⟩ => rfl | ⟨1, _⟩ => rfl | ⟨2, _⟩ => rfl)
    (fun k => funext fun a => match a with | ⟨0, _⟩ => rfl | ⟨1, _⟩ => rfl) (funext fun a => match a with | ⟨0, _⟩ => rfl)

theorem v15_eq (x : Act) (w : Wt) (β : Bias) : val_main_v15 (F := Ideal) x w β = linear x w β := by
  funext i
  rw [val_main_v15_apply, val_main_v12_apply, val_main_v14_apply, val_main_v13_apply]
  exact proj_eq x w β i _ _ _ (fun k => funext fun a => match a with | ⟨0, _⟩ => rfl | ⟨1, _⟩ => rfl | ⟨2, _⟩ => rfl)
    (fun k => funext fun a => match a with | ⟨0, _⟩ => rfl | ⟨1, _⟩ => rfl) (funext fun a => match a with | ⟨0, _⟩ => rfl)

/-! ## The head split: [b, s, 1024] reshaped to [b, s, 16, 64] and transposed to [b, 16, s, 64] -/

/-- Entry (b, h, s, d) of the transposed reshape is entry (b, s, 64 h + d) of the flat array. -/
theorem split_idx (i : S2x16x2048x64.Idx) : idx_main_v4 (idx_main_v5 i) = ix3 (i 0) (i 2) (col (i 1) (i 3)) := by
  have h0 : (i 0).val < 2 := (i 0).isLt
  have h1 : (i 1).val < 16 := (i 1).isLt
  have h2 : (i 2).val < 2048 := (i 2).isLt
  have h3 : (i 3).val < 64 := (i 3).isLt
  funext a
  match a with
  | ⟨0, _⟩ => exact Fin.ext (by show ((((i 0).val * 2048 + (i 2).val) * 16 + (i 1).val) * 64 + (i 3).val) / 2097152 = (i 0).val; omega)
  | ⟨1, _⟩ => exact Fin.ext (by show ((((i 0).val * 2048 + (i 2).val) * 16 + (i 1).val) * 64 + (i 3).val) / 1024 % 2048 = (i 2).val; omega)
  | ⟨2, _⟩ => exact Fin.ext (by show ((((i 0).val * 2048 + (i 2).val) * 16 + (i 1).val) * 64 + (i 3).val) % 1024 = 64 * (i 1).val + (i 3).val; omega)

theorem v5_eq (x : Act) (w : Wt) (β : Bias) (i : S2x16x2048x64.Idx) :
    val_main_v5 (F := Ideal) x w β i = linear x w β (ix3 (i 0) (i 2) (col (i 1) (i 3))) := by
  rw [val_main_v5_apply, val_main_v4_apply, v3_eq]
  exact congrArg _ (split_idx i)

theorem v11_eq (x : Act) (w : Wt) (β : Bias) (i : S2x16x2048x64.Idx) :
    val_main_v11 (F := Ideal) x w β i = linear x w β (ix3 (i 0) (i 2) (col (i 1) (i 3))) := by
  rw [val_main_v11_apply, val_main_v10_apply, v9_eq]
  exact congrArg _ (split_idx i)

theorem v17_eq (x : Act) (w : Wt) (β : Bias) (i : S2x16x2048x64.Idx) :
    val_main_v17 (F := Ideal) x w β i = linear x w β (ix3 (i 0) (i 2) (col (i 1) (i 3))) := by
  rw [val_main_v17_apply, val_main_v16_apply, v15_eq]
  exact congrArg _ (split_idx i)

/-! ## The causal mask and the scores -/

/-- A position below 2048 read back from its 32-bit word, signed. -/
theorem toInt_ofNat_small (n : Nat) (h : n < 2048) : (BitVec.ofNat 32 n).toInt = (n : Int) := by
  rw [BitVec.toInt_eq_toNat_cond, BitVec.toNat_ofNat, Nat.mod_eq_of_lt (by omega)]
  split <;> omega

/-- The mask bit at (b, h, s, t): set exactly for the keys after the query, `t > s`. -/
theorem mask_eq (i : S2x16x2048x2048.Idx) :
    val_main_call1_v1 (F := Ideal) i = if (i 3).val ≤ (i 2).val then 0#1 else 1#1 := by
  rw [val_main_call1_v1_apply, val_main_v23_apply, val_main_v22_apply, val_main_call0_v4_apply, val_main_call0_v2_apply,
    val_main_call0_v0_apply, val_main_call0_v1_apply, val_main_call0_c_apply, val_main_call0_v3_apply, val_main_call0_v5_apply,
    val_main_call0_c_0_apply, val_main_v21_apply, val_main_c_apply]
  show Scalar.select (IntOp.cmpi .sge (IntOp.addi (BitVec.ofNat 32 (i 2).val) 0#32) (BitVec.ofNat 32 (i 3).val)) 0#1 1#1 = _
  have h2 : (i 2).val < 2048 := (i 2).isLt
  have h3 : (i 3).val < 2048 := (i 3).isLt
  have ha : IntOp.addi (BitVec.ofNat 32 (i 2).val) 0#32 = BitVec.ofNat 32 (i 2).val := by
    unfold IntOp.addi; exact BitVec.add_zero _
  rw [ha]
  by_cases hle : (i 3).val ≤ (i 2).val
  · rw [if_pos hle, IntOp.cmpi_sge.mpr (by rw [toInt_ofNat_small _ h2, toInt_ofNat_small _ h3]; omega), select_one]
  · have hz : IntOp.cmpi .sge (BitVec.ofNat 32 (i 2).val) (BitVec.ofNat 32 (i 3).val) = 0#1 :=
      eq_zero_of_ne_one (fun e => hle (by
        have := IntOp.cmpi_sge.mp e; rw [toInt_ofNat_small _ h2, toInt_ofNat_small _ h3] at this; omega))
    rw [if_neg hle, hz, select_zero]

/-- The f32 word of −∞ is the bottom of the extended reals. -/
theorem ninf_eq : Ideal.ofBits .f32 0xFF800000#32 = (⊥ : EReal) := by simp [Ideal.ofBits, Ideal.ieee]

/-- The masked, scaled scores are the specification's. -/
theorem v24_eq (x : Act) (wq : Wt) (bq : Bias) (wk : Wt) (bk : Bias) (i : S2x16x2048x2048.Idx) :
    val_main_v24 (F := Ideal) x wq bq wk bk i
      = scoreRef (rows (linear x wq bq) (i 0)) (rows (linear x wk bk) (i 0)) (i 1) (i 2) (i 3) := by
  rw [val_main_v24_apply, mask_eq, val_main_call1_v2_apply, val_main_call1_v0_apply, val_main_cst_0_apply,
    val_main_v20_apply, val_main_v18_apply, val_main_v19_apply, val_main_cst_apply]
  unfold scoreRef
  by_cases hle : (i 3).val ≤ (i 2).val
  · rw [if_pos hle, if_pos hle, select_zero]
    show (∑ k : Fin 64, _ * _) * Ideal.ofBits .f32 0x3E000000#32 = _
    unfold eighth
    congr 1
    refine Finset.sum_congr rfl fun k _ => ?_
    rw [v5_eq, v11_eq]
    rfl
  · rw [if_neg hle, if_neg hle, select_one]
    exact ninf_eq

/-! ## The row maximum -/

theorem reduces_row : S2x16x2048x2048.Reduces [3] S2x16x2048 := by decide

theorem keys_extent : S2x16x2048x2048.size 3 = 2048 := by decide

/-- The reduced index (b, h, s) with key `k` put back is (b, h, s, k). -/
theorem lift_row (j : S2x16x2048.Idx) (k : Fin (S2x16x2048x2048.size 3)) :
    reduces_row.lift j k = ix4 (j 0) (j 1) (j 2) (Fin.cast keys_extent k) := by
  funext c; apply Fin.ext
  fin_cases c <;> rfl

/-- A fold of `max` from −∞ over all of a finite range is the supremum over the range. -/
theorem fold_max_eq_sup {n m : Nat} (e : n = m) (f : Fin n → EReal) (g : Fin m → EReal)
    (hfg : ∀ k : Fin n, f k = g (Fin.cast e k)) :
    Finset.fold max (⊥ : EReal) f Finset.univ = Finset.univ.sup g := by
  subst e
  have hf : f = g := funext fun k => hfg k
  rw [hf]; rfl

/-- The row maximum, taken from −∞ and once more against −∞, is the supremum of the row's scores. -/
theorem v27_eq (x : Act) (wq : Wt) (bq : Bias) (wk : Wt) (bk : Bias) (j : S2x16x2048.Idx) :
    val_main_v27 (F := Ideal) x wq bq wk bk j
      = Finset.univ.sup fun t : Fin 2048 => scoreRef (rows (linear x wq bq) (j 0)) (rows (linear x wk bk) (j 0)) (j 1) (j 2) t := by
  rw [val_main_v27_apply, val_main_v26_apply, val_main_cst_2_apply]
  unfold val_main_v25
  rw [Host.reduce_eq_fold_single FloatOps.maximumf _ _ reducesTo_S2x16x2048x2048_S2x16x2048_d3 reduces_row h_S_, val_main_cst_1_apply]
  show max (Ideal.ofBits .f32 0xFF800000#32) (Finset.fold max (Ideal.ofBits .f32 0xFF800000#32)
    (val_main_v24 (F := Ideal) x wq bq wk bk ∘ reduces_row.lift j) Finset.univ) = _
  rw [ninf_eq, bot_sup_eq]
  exact fold_max_eq_sup keys_extent _ _ fun k =>
    (congrArg (val_main_v24 (F := Ideal) x wq bq wk bk) (lift_row j k)).trans (v24_eq x wq bq wk bk _)

/-! ## The softmax weights and the weighted sum of the value rows -/

/-- The exponential of a score less its row's maximum. -/
theorem v31_eq (x : Act) (wq : Wt) (bq : Bias) (wk : Wt) (bk : Bias) (i : S2x16x2048x2048.Idx) :
    val_main_v31 (F := Ideal) x wq bq wk bk i = Ideal.exp (scoreRef (rows (linear x wq bq) (i 0)) (rows (linear x wk bk) (i 0)) (i 1) (i 2) (i 3) - (Finset.univ.sup fun t' : Fin 2048 => scoreRef (rows (linear x wq bq) (i 0)) (rows (linear x wk bk) (i 0)) (i 1) (i 2) t')) := by
  rw [val_main_v31_apply, val_main_v30_apply, val_main_v29_apply, val_main_v28_apply, v27_eq, v24_eq]
  rfl

/-- The normaliser: zero plus the sum of the row's exponentials. -/
theorem v32_eq (x : Act) (wq : Wt) (bq : Bias) (wk : Wt) (bk : Bias) (j : S2x16x2048.Idx) :
    val_main_v32 (F := Ideal) x wq bq wk bk j = (∑ t'' : Fin 2048, Ideal.exp (scoreRef (rows (linear x wq bq) (j 0)) (rows (linear x wk bk) (j 0)) (j 1) (j 2) t'' - (Finset.univ.sup fun t' : Fin 2048 => scoreRef (rows (linear x wq bq) (j 0)) (rows (linear x wk bk) (j 0)) (j 1) (j 2) t'))) := by
  rw [val_main_v32_apply, val_main_cst_3_apply]
  show Ideal.ofBits .f32 0x00000000#32 + _ = _
  rw [Ideal.ofBits_zero_f32, zero_add]
  refine Finset.sum_congr rfl fun t _ => ?_
  rw [v31_eq]
  rfl

/-- A softmax weight: the exponential divided by the normaliser. -/
theorem v35_eq (x : Act) (wq : Wt) (bq : Bias) (wk : Wt) (bk : Bias) (i : S2x16x2048x2048.Idx) :
    val_main_v35 (F := Ideal) x wq bq wk bk i = Ideal.div (Ideal.exp (scoreRef (rows (linear x wq bq) (i 0)) (rows (linear x wk bk) (i 0)) (i 1) (i 2) (i 3) - (Finset.univ.sup fun t' : Fin 2048 => scoreRef (rows (linear x wq bq) (i 0)) (rows (linear x wk bk) (i 0)) (i 1) (i 2) t'))) (∑ t'' : Fin 2048, Ideal.exp (scoreRef (rows (linear x wq bq) (i 0)) (rows (linear x wk bk) (i 0)) (i 1) (i 2) t'' - (Finset.univ.sup fun t' : Fin 2048 => scoreRef (rows (linear x wq bq) (i 0)) (rows (linear x wk bk) (i 0)) (i 1) (i 2) t'))) := by
  rw [val_main_v35_apply, val_main_v34_apply, val_main_v33_apply, v32_eq, v31_eq]
  rfl

/-- The weighted sum of the value rows, per batch entry, head, query and head coordinate. -/
theorem v36_eq (x : Act) (wq : Wt) (bq : Bias) (wk : Wt) (bk : Bias) (wv : Wt) (bv : Bias) (b : Fin 2) (h : Fin 16) (s : Fin 2048) (d : Fin 64) :
    val_main_v36 (F := Ideal) x wq bq wk bk wv bv (ix4 b h s d)
      = ∑ t : Fin 2048, Ideal.div (Ideal.exp (scoreRef (rows (linear x wq bq) (b)) (rows (linear x wk bk) (b)) (h) (s) t - (Finset.univ.sup fun t' : Fin 2048 => scoreRef (rows (linear x wq bq) (b)) (rows (linear x wk bk) (b)) (h) (s) t'))) (∑ t'' : Fin 2048, Ideal.exp (scoreRef (rows (linear x wq bq) (b)) (rows (linear x wk bk) (b)) (h) (s) t'' - (Finset.univ.sup fun t' : Fin 2048 => scoreRef (rows (linear x wq bq) (b)) (rows (linear x wk bk) (b)) (h) (s) t'))) * rows (linear x wv bv) b t (col h d) := by
  rw [val_main_v36_apply]
  refine Finset.sum_congr rfl fun t _ => ?_
  rw [v35_eq, v17_eq]
  rfl

/-! ## Merging the heads back and the output projection -/

/-- Entry (b, s, c) of the merged array is entry (b, c / 64, s, c % 64) of the per-head one. -/
theorem merge_idx (i : S2x2048x1024.Idx) :
    idx_main_v37 (idx_main_v38 i) = ix4 (i 0) (headOf (i 2)) (i 1) (⟨(i 2).val % 64, Nat.mod_lt _ (by decide)⟩ : Fin 64) := by
  have h0 : (i 0).val < 2 := (i 0).isLt
  have h1 : (i 1).val < 2048 := (i 1).isLt
  have h2 : (i 2).val < 1024 := (i 2).isLt
  funext a
  match a with
  | ⟨0, _⟩ => exact Fin.ext (by show (((i 0).val * 2048 + (i 1).val) * 1024 + (i 2).val) / 2097152 = (i 0).val; omega)
  | ⟨1, _⟩ => exact Fin.ext (by show (((i 0).val * 2048 + (i 1).val) * 1024 + (i 2).val) / 64 % 16 = (i 2).val / 64; omega)
  | ⟨2, _⟩ => exact Fin.ext (by show (((i 0).val * 2048 + (i 1).val) * 1024 + (i 2).val) / 1024 % 2048 = (i 1).val; omega)
  | ⟨3, _⟩ => exact Fin.ext (by show (((i 0).val * 2048 + (i 1).val) * 1024 + (i 2).val) % 64 = (i 2).val % 64; omega)

/-- A model column is coordinate `c % 64` of its head `c / 64`. -/
theorem col_headOf (c : Fin 1024) : col (headOf c) (⟨c.val % 64, Nat.mod_lt _ (by decide)⟩ : Fin 64) = c :=
  Fin.ext (by show 64 * (c.val / 64) + c.val % 64 = c.val; omega)

/-- The merged attention output at (b, s, c) is the specification's `attnRef` of the three projections there. -/
theorem v38_at (x : Act) (wq : Wt) (bq : Bias) (wk : Wt) (bk : Bias) (wv : Wt) (bv : Bias) (b : Fin 2) (s : Fin 2048) (c : Fin 1024) :
    val_main_v38 (F := Ideal) x wq bq wk bk wv bv (ix3 b s c)
      = attnRef (linear x wq bq) (linear x wk bk) (linear x wv bv) (ix3 b s c) := by
  have e : idx_main_v37 (idx_main_v38 (ix3 b s c))
      = ix4 b (headOf c) s (⟨c.val % 64, Nat.mod_lt _ (by decide)⟩ : Fin 64) := merge_idx (ix3 b s c)
  rw [val_main_v38_apply, val_main_v37_apply, e, v36_eq, col_headOf]
  rfl

theorem v38_eq (x : Act) (wq : Wt) (bq : Bias) (wk : Wt) (bk : Bias) (wv : Wt) (bv : Bias) :
    val_main_v38 (F := Ideal) x wq bq wk bk wv bv = attnRef (linear x wq bq) (linear x wk bk) (linear x wv bv) := by
  funext i
  obtain ⟨b, s, c, rfl⟩ : ∃ (b : Fin 2) (s : Fin 2048) (c : Fin 1024), i = ix3 b s c := ⟨i 0, i 1, i 2, eq_ix3 i⟩
  exact v38_at x wq bq wk bk wv bv b s c

/-- The reference program's result, as the run states it, is the plain form of the specification. -/
theorem ref_is_Gref (x : Act) (wq : Wt) (bq : Bias) (wk : Wt) (bk : Bias) (wv : Wt) (bv : Bias) (wo : Wt) (bo : Bias) :
    val_main_v42 (F := Ideal) x wq bq wk bk wv bv wo bo = Gref x wq bq wk bk wv bv wo bo := by
  funext i
  rw [val_main_v42_apply, val_main_v39_apply, val_main_v41_apply, val_main_v40_apply, v38_eq]
  exact proj_eq _ wo bo i _ _ _ (fun k => funext fun a => match a with | ⟨0, _⟩ => rfl | ⟨1, _⟩ => rfl | ⟨2, _⟩ => rfl)
    (fun k => funext fun a => match a with | ⟨0, _⟩ => rfl | ⟨1, _⟩ => rfl) (funext fun a => match a with | ⟨0, _⟩ => rfl)

/-- The same, from the run's own result term of a memory. -/
theorem ref_run_is_Gref (m : (ℓ : Loc nD τ sig) → Buf (Elt Ideal) ℓ) (c : Dev nD) :
    Cert.ReferenceIdeal.Value.res_main_v42 (F := Ideal) m c
      = Gref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [val_main_v42_eq]; exact ref_is_Gref _ _ _ _ _ _ _ _ _

end Cert.ReferenceIdeal.RefValue

end
-- ==== Proof.AttnMath.lean ====
/-
  The tiled form and the plain form of causal multi-head attention take the same value when every input entry
  is a real number.

  The argument, for one batch entry, head, query position s and n the end of the tile holding s (so s < n):
  * the f32 word 0x3E000000 denotes the real 1/8, and a real factor moves out of a finite sum of reals, so the
    scores computed from the scaled query are the scaled scores;
  * a projection of real arrays is a real array;
  * the scores are real up to and including key s and -∞ after it, so the maximum over all keys is a real
    number m attained among the first n keys, the weight exp (score - m) of every masked key is 0, and sums
    over all keys equal sums over the first n keys;
  * the normaliser is a positive real (the key s itself contributes a positive term), and dividing a finite
    sum of reals by it is dividing every term.
-/
import proofs.«129124_j25151328485592_2_alg».proof.Proof.Spec
import Mathlib.Data.Fin.Embedding
import Mathlib.Algebra.BigOperators.Fin
import Mathlib.Analysis.SpecialFunctions.Exp

noncomputable section

open scoped BigOperators

namespace Cert.Attn

open Idealize.ShloMosaic Idealize.ShloMosaic.ValueIdx

/-! ## The scale -/

/-- The f32 word 0x3E000000 denotes the real number 1/8. -/
theorem eighth_eq : eighth = ((1 / 8 : ℝ) : EReal) := by
  unfold eighth
  simp [Ideal.ofBits, Ideal.ieee, -EReal.coe_mul]; norm_num

/-! ## Real numbers inside the extended reals -/

/-- The inclusion of the reals commutes with finite sums. -/
theorem coe_sum {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A sum over the first n indices of a function that vanishes from n on is the sum over all indices. -/
theorem sum_castLE {A : Type*} [AddCommMonoid A] {n N : ℕ} (h : n ≤ N) (f : Fin N → A)
    (hf : ∀ t : Fin N, n ≤ t.val → f t = 0) :
    ∑ t : Fin n, f (Fin.castLE h t) = ∑ t : Fin N, f t := by
  have e : ∑ t : Fin n, f (Fin.castLE h t) = ∑ t ∈ Finset.univ.map (Fin.castLEEmb h), f t := by
    rw [Finset.sum_map]; rfl
  rw [e]
  apply Finset.sum_subset (Finset.subset_univ _)
  intro t _ ht
  apply hf
  by_contra hlt
  exact ht (Finset.mem_map.mpr ⟨⟨t.val, by omega⟩, Finset.mem_univ _, Fin.ext rfl⟩)

/-- A projection of real arrays is a real array. -/
theorem linear_allReal {x : Act} {w : Wt} {β : Bias} (hx : AllReal x) (hw : AllReal w) (hβ : AllReal β) :
    AllReal (linear x w β) := by
  choose fx hfx using (hx : ∀ i, ∃ r : ℝ, x i = (r : EReal))
  choose fw hfw using (hw : ∀ i, ∃ r : ℝ, w i = (r : EReal))
  choose fβ hfβ using (hβ : ∀ i, ∃ r : ℝ, β i = (r : EReal))
  intro i
  refine ⟨(∑ d : Fin 1024, fx (ix3 (i 0) (i 1) d) * fw (ix2 (i 2) d)) + fβ (ix1 (i 2)), ?_⟩
  simp only [linear, hfx, hfw, hfβ]
  rw [EReal.coe_add, ← coe_sum]
  simp only [EReal.coe_mul]

/-! ## Masked scores and their weights -/

section Softmax

variable {N n : ℕ}

/-- Scores that are real up to and including position s and -∞ after it. -/
def masked (s : Fin N) (a : Fin N → ℝ) (t : Fin N) : EReal := if t.val ≤ s.val then (a t : EReal) else ⊥

/-- The weight exp (score - m) of key t as a real number: 0 on the masked keys. -/
def wgt (s : Fin N) (a : Fin N → ℝ) (m : ℝ) (t : Fin N) : ℝ := if t.val ≤ s.val then Real.exp (a t - m) else 0

variable (hn : n ≤ N) (s : Fin N) (a : Fin N → ℝ)

theorem masked_self : masked s a s = (a s : EReal) := if_pos le_rfl

/-- The maximum of the masked scores is a real number. -/
theorem sup_masked_real : ∃ m : ℝ, Finset.univ.sup (masked s a) = (m : EReal) := by
  obtain ⟨t₀, -, ht₀⟩ := Finset.exists_mem_eq_sup Finset.univ ⟨s, Finset.mem_univ s⟩ (masked s a)
  by_cases h : t₀.val ≤ s.val
  · exact ⟨a t₀, by rw [ht₀]; exact if_pos h⟩
  · exfalso
    have hle : masked s a s ≤ Finset.univ.sup (masked s a) := Finset.le_sup (Finset.mem_univ s)
    have hbot : masked s a t₀ = ⊥ := if_neg h
    rw [ht₀, masked_self, hbot] at hle
    exact absurd (le_bot_iff.mp hle) (EReal.coe_ne_bot _)

/-- The maximum over the first n keys is the maximum over all keys: the keys from n on are masked. -/
theorem sup_masked_castLE (hs : s.val < n) :
    Finset.univ.sup (fun t : Fin n => masked s a (Fin.castLE hn t)) = Finset.univ.sup (masked s a) := by
  apply le_antisymm
  · exact Finset.sup_le fun t _ => Finset.le_sup (f := masked s a) (Finset.mem_univ (Fin.castLE hn t))
  · refine Finset.sup_le fun t _ => ?_
    by_cases ht : t.val < n
    · have e : Fin.castLE hn ⟨t.val, ht⟩ = t := Fin.ext rfl
      have h1 : masked s a t = (fun t : Fin n => masked s a (Fin.castLE hn t)) ⟨t.val, ht⟩ := by
        show masked s a t = masked s a (Fin.castLE hn ⟨t.val, ht⟩)
        rw [e]
      rw [h1]
      exact Finset.le_sup (f := fun t : Fin n => masked s a (Fin.castLE hn t)) (Finset.mem_univ _)
    · have hbot : masked s a t = ⊥ := if_neg (by omega)
      rw [hbot]; exact bot_le

/-- Subtracting a real maximum and exponentiating gives the real weight. -/
theorem exp_masked_sub (m : ℝ) (t : Fin N) :
    Ideal.exp (masked s a t - (m : EReal)) = (wgt s a m t : EReal) := by
  unfold masked wgt
  by_cases h : t.val ≤ s.val
  · rw [if_pos h, if_pos h, ← EReal.coe_sub, Ideal.exp_coe]
  · rw [if_neg h, if_neg h, EReal.bot_sub, Ideal.exp_bot, EReal.coe_zero]

theorem wgt_nonneg (m : ℝ) (t : Fin N) : 0 ≤ wgt s a m t := by
  unfold wgt; split_ifs
  · exact (Real.exp_pos _).le
  · exact le_rfl

theorem wgt_self_pos (m : ℝ) : 0 < wgt s a m s := by
  unfold wgt; rw [if_pos le_rfl]; exact Real.exp_pos _

theorem wgt_masked (m : ℝ) (t : Fin N) (h : s.val < t.val) : wgt s a m t = 0 := if_neg (by omega)

/-- The normaliser is positive: the key s itself has a positive weight. -/
theorem sum_wgt_pos (m : ℝ) : 0 < ∑ t : Fin N, wgt s a m t :=
  Finset.sum_pos' (fun t _ => wgt_nonneg s a m t) ⟨s, Finset.mem_univ s, wgt_self_pos s a m⟩

/-- Softmax over the first n keys with one division at the end equals softmax over all keys with every
    weight divided first, for masked scores and real values. -/
theorem softmax_tile (hs : s.val < n) (v : Fin N → ℝ) :
    Ideal.div
        (∑ t : Fin n, Ideal.exp (masked s a (Fin.castLE hn t)
              - Finset.univ.sup fun t : Fin n => masked s a (Fin.castLE hn t))
            * (v (Fin.castLE hn t) : EReal))
        (∑ t : Fin n, Ideal.exp (masked s a (Fin.castLE hn t)
              - Finset.univ.sup fun t : Fin n => masked s a (Fin.castLE hn t)))
      = ∑ t : Fin N, Ideal.div (Ideal.exp (masked s a t - Finset.univ.sup (masked s a)))
            (∑ t : Fin N, Ideal.exp (masked s a t - Finset.univ.sup (masked s a))) * (v t : EReal) := by
  rw [sup_masked_castLE hn s a hs]
  obtain ⟨m, hm⟩ := sup_masked_real s a
  rw [hm]
  simp only [exp_masked_sub, ← EReal.coe_mul, coe_sum]
  have h1 : ∑ t : Fin n, wgt s a m (Fin.castLE hn t) * v (Fin.castLE hn t) = ∑ t : Fin N, wgt s a m t * v t :=
    sum_castLE hn (fun t => wgt s a m t * v t) fun t ht => by
      show wgt s a m t * v t = 0
      rw [wgt_masked s a m t (by omega), zero_mul]
  have h2 : ∑ t : Fin n, wgt s a m (Fin.castLE hn t) = ∑ t : Fin N, wgt s a m t :=
    sum_castLE hn (fun t => wgt s a m t) fun t ht => wgt_masked s a m t (by omega)
  rw [h1, h2]
  have hL : (∑ t : Fin N, wgt s a m t) ≠ 0 := (sum_wgt_pos s a m).ne'
  simp only [Ideal.div_coe hL, ← EReal.coe_mul, coe_sum]
  rw [EReal.coe_eq_coe_iff, Finset.sum_mul]
  exact Finset.sum_congr rfl fun t _ => by ring

end Softmax

/-! ## The two score functions on real rows -/

/-- The real scaled dot product of query row s and key row t in head h. -/
def dot8 (Q K : Fin 2048 → Fin 1024 → ℝ) (h : Fin 16) (s : Fin 2048) (t : Fin 2048) : ℝ :=
  (∑ d : Fin 64, Q s (col h d) * K t (col h d)) * (1 / 8)

theorem scoreRef_real (Q K : Fin 2048 → Fin 1024 → ℝ) (h : Fin 16) (s t : Fin 2048) :
    scoreRef (fun s c => (Q s c : EReal)) (fun s c => (K s c : EReal)) h s t = masked s (dot8 Q K h s) t := by
  unfold scoreRef masked dot8
  by_cases hts : t.val ≤ s.val
  · rw [if_pos hts, if_pos hts, eighth_eq]
    simp only [← EReal.coe_mul, coe_sum]
  · rw [if_neg hts, if_neg hts]

theorem scoreKer_real (Q K : Fin 2048 → Fin 1024 → ℝ) (h : Fin 16) (s t : Fin 2048) :
    scoreKer (fun s c => (Q s c : EReal) * eighth) (fun s c => (K s c : EReal)) h s t
      = masked s (dot8 Q K h s) t := by
  unfold scoreKer masked dot8
  by_cases hts : t.val ≤ s.val
  · rw [if_pos hts, if_pos hts, eighth_eq]
    simp only [← EReal.coe_mul, coe_sum]
    rw [EReal.coe_eq_coe_iff, Finset.sum_mul]
    exact Finset.sum_congr rfl fun d _ => by ring
  · rw [if_neg hts, if_neg hts]

/-! ## One row of attention -/

theorem core_eq (Q K V : Fin 2048 → Fin 1024 → ℝ) (s : Fin 2048) (c : Fin 1024) :
    attnKerCore (tileEnd s) (tileEnd_le s) (fun s c => (Q s c : EReal) * eighth) (fun s c => (K s c : EReal))
        (fun s c => (V s c : EReal)) s c
      = attnRefCore (fun s c => (Q s c : EReal)) (fun s c => (K s c : EReal)) (fun s c => (V s c : EReal)) s c := by
  have hs : s.val < tileEnd s := by unfold tileEnd; omega
  simp only [attnKerCore, attnRefCore, scoreKer_real, scoreRef_real]
  exact softmax_tile (tileEnd_le s) s (dot8 Q K (headOf c) s) hs (fun t => V t c)

/-! ## The whole function -/

theorem attnKer_eq_attnRef {q k v : Act} (hq : AllReal q) (hk : AllReal k) (hv : AllReal v) :
    attnKer (fun i => q i * eighth) k v = attnRef q k v := by
  choose fq hfq using (hq : ∀ i, ∃ r : ℝ, q i = (r : EReal))
  choose fk hfk using (hk : ∀ i, ∃ r : ℝ, k i = (r : EReal))
  choose fv hfv using (hv : ∀ i, ∃ r : ℝ, v i = (r : EReal))
  obtain rfl : q = fun i => (fq i : EReal) := funext hfq
  obtain rfl : k = fun i => (fk i : EReal) := funext hfk
  obtain rfl : v = fun i => (fv i : EReal) := funext hfv
  funext i
  exact core_eq (fun s c => fq (ix3 (i 0) s c)) (fun s c => fk (ix3 (i 0) s c)) (fun s c => fv (ix3 (i 0) s c))
    (i 1) (i 2)

theorem Gker_eq_Gref (x : Act) (wq : Wt) (bq : Bias) (wk : Wt) (bk : Bias) (wv : Wt) (bv : Bias) (wo : Wt) (bo : Bias)
    (hx : AllReal x) (hwq : AllReal wq) (hbq : AllReal bq) (hwk : AllReal wk) (hbk : AllReal bk)
    (hwv : AllReal wv) (hbv : AllReal bv) (hwo : AllReal wo) (hbo : AllReal bo) :
    Gker x wq bq wk bk wv bv wo bo = Gref x wq bq wk bk wv bv wo bo := by
  unfold Gker Gref
  have hq : linearScaled x wq bq = fun i => linear x wq bq i * eighth := rfl
  rw [hq, attnKer_eq_attnRef (linear_allReal hx hwq hbq) (linear_allReal hx hwk hbk) (linear_allReal hx hwv hbv)]

end Cert.Attn

end
-- ==== Proof.FiniteInputs.lean ====
/-
  From the precondition to real inputs. The precondition computes, for each of the nine argument arrays, whether
  every entry x satisfies |x| < +∞, and conjoins the nine answers; it is stated to come out true. Over the
  extended reals |x| = max x (-x) is +∞ exactly at x = ±∞, so every entry of every argument is a real number.
-/
import proofs.«129124_j25151328485592_2_alg».proof.Defs
import proofs.«129124_j25151328485592_2_alg».proof.Proof.Gen.Pre_finite_inputs
import proofs.«129124_j25151328485592_2_alg».proof.Proof.Spec
import Idealize.ShloMosaic.Lib.ReduceAll

noncomputable section

namespace Cert.Attn.FiniteInputs

open Idealize.ShloMosaic Idealize.SL.Sem Cert.Pre_finite_inputs

/-- The rank-0 shape has one index. -/
theorem subsingleton_S_ : Subsingleton S_.Idx := ⟨fun _ _ => funext fun d => d.elim0⟩

/-- The f32 word 0x7F800000 denotes +∞. -/
theorem ofBits_inf : Ideal.ofBits .f32 0x7F800000#32 = ⊤ := by
  simp [Ideal.ofBits, Ideal.ieee]

/-- The ordered less-than comparison answers 1 only when its left operand is below its right one. -/
theorem lt_of_cmp_olt {a b : EReal} (h : Ideal.cmp .olt a b = 1#1) : a < b := by
  by_contra hn
  unfold Ideal.cmp at h
  simp [hn] at h

/-- An extended real whose absolute value max x (-x) is below +∞ is a real number. -/
theorem real_of_abs_lt_inf (x : EReal)
    (h : Ideal.cmp .olt (max x (-x)) (Ideal.ofBits .f32 0x7F800000#32) = 1#1) : ∃ r : ℝ, x = (r : EReal) := by
  have hlt := lt_of_cmp_olt h
  rw [ofBits_inf] at hlt
  induction x using EReal.rec with
  | bot => exact absurd hlt (by simp)
  | coe r => exact ⟨r, rfl⟩
  | top => exact absurd hlt (by simp)

/-- One array of the precondition: if the conjunction over all entries of |x| < +∞ is true, every entry is real. -/
theorem allReal_of_all {s : Shape} {axes : List (Fin s.rank)} (x : FVec Ideal s .f32)
    (bc : S_.BroadcastsInDim s (![] : Fin 0 → Fin s.rank)) (hr : s.ReducesTo axes S_) (hu : 0 < S_.numel) (j : S_.Idx)
    (e : Host.reduce IntOp.andi
          (cmpf .olt (Host.absf x) (broadcastInDim s ![] bc (constant (F := Ideal) S_ .f32 0x7F800000#32)))
          (constantI S_ 1 1#1) hr hu j = 1#1) : AllReal x := by
  haveI := subsingleton_S_
  intro i
  exact real_of_abs_lt_inf (x i) (Host.reduce_andi_all _ _ hr hu j e i)

/-- The printed precondition read back: if it is true of nine arrays, all nine are real arrays. -/
theorem allReal_of_fn [Cert.Pre_finite_inputs.Facts]
    (x0 : FVec Ideal S2x2048x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32) (x7 : FVec Ideal S1024x1024 .f32) (x8 : FVec Ideal S1024 .f32)
    (h : Cert.Pre_finite_inputs.fn (F := Ideal) x0 x1 x2 x3 x4 x5 x6 x7 x8 = fun _ => 1#1) :
    AllReal x0 ∧ AllReal x1 ∧ AllReal x2 ∧ AllReal x3 ∧ AllReal x4 ∧ AllReal x5 ∧ AllReal x6 ∧ AllReal x7
      ∧ AllReal x8 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨e0, e1⟩, e2⟩, e3⟩, e4⟩, e5⟩, e6⟩, e7⟩, e8⟩ := e
  exact ⟨allReal_of_all x0 _ _ _ _ e0, allReal_of_all x1 _ _ _ _ e1, allReal_of_all x2 _ _ _ _ e2,
    allReal_of_all x3 _ _ _ _ e3, allReal_of_all x4 _ _ _ _ e4, allReal_of_all x5 _ _ _ _ e5,
    allReal_of_all x6 _ _ _ _ e6, allReal_of_all x7 _ _ _ _ e7, allReal_of_all x8 _ _ _ _ e8⟩

/-- Under the precondition every entry of every argument array of the idealized kernel is a real number. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8)) :=
  allReal_of_fn _ _ _ _ _ _ _ _ _ (h c)

end Cert.Attn.FiniteInputs

end
-- ==== Proof.Claims.lean ====
/-
  The five claims. The three frames are the generated ones (the reference's is its generated run with the
  result dropped). The idealization ledger has one kind of entry, 64 times: the kernel's finite stand-in for `-∞`
  in the causal mask is named, and the name denotes `⊥`. The value claim: the idealized kernel ends with its
  result at the tiled form `Gker` of its nine arguments (the run read back through the three regions), the
  idealized reference ends with its result at the plain form `Gref` of its arguments (its generated run, read
  stage by stage), the arguments agree, and under the precondition every argument entry is a real number, where the
  two forms are one function.
-/
import proofs.«129124_j25151328485592_2_alg».proof.Defs
import proofs.«129124_j25151328485592_2_alg».proof.Proof.Gen.Kernel.Frame
import proofs.«129124_j25151328485592_2_alg».proof.Proof.Gen.KernelIdeal.Frame
import proofs.«129124_j25151328485592_2_alg».proof.Proof.Gen.ReferenceIdeal.Run
import proofs.«129124_j25151328485592_2_alg».proof.Proof.Gen.Pre_finite_inputs
import proofs.«129124_j25151328485592_2_alg».proof.Proof.KernelRun
import proofs.«129124_j25151328485592_2_alg».proof.Proof.KernelFold
import proofs.«129124_j25151328485592_2_alg».proof.Proof.AttnBody
import proofs.«129124_j25151328485592_2_alg».proof.Proof.RefIsG
import proofs.«129124_j25151328485592_2_alg».proof.Proof.AttnMath
import proofs.«129124_j25151328485592_2_alg».proof.Proof.FiniteInputs

set_option maxRecDepth 16384

noncomputable section

namespace Cert.Proof.AttnClaims

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's entries: the mask's fill constant is named and the name denotes `⊥`. -/
theorem preserves : Cert.preserves_Kernel_KernelIdeal :=
  have p := IdealRules.named_const.statement Cert.KernelIdeal.κ "neg_big" .f32 0xFF333332#32 ⊥ rfl
  ⟨p, p, p, p, p, p, p, p, p, p, p, p, p, p, p, p, p, p, p, p, p, p, p, p, p, p, p, p, p, p, p, p, p, p, p, p, p, p, p, p, p, p, p, p, p, p, p, p, p, p, p, p, p, p, p, p, p, p, p, p, p, p, p, p⟩

/-- The attention body leaves the tiled attention of its input slabs. -/
theorem body : Cert.KernelIdeal.Region1.BodyIsAttn := fun x0 x1 x2 s c => Cert.KernelIdeal.AttnBody.out1_3_apply x0 x1 x2 s c

/-- The idealized kernel's run with its result at the tiled form of the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v21)
        = Cert.Attn.Gker (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono
    (fun r h c => ⟨(h c).1.trans (Cert.KernelIdeal.Fold.result m ρ body c), (h c).2⟩)
    (Cert.KernelIdeal.RunValue.run (F := Ideal) m ρ)

/-- Both idealized programs end with the same result, element by element. -/
theorem algebraic : Cert.algebraic_KernelIdeal_ReferenceIdeal := by
  intro m ρ m' ρ' hpre hagree
  refine ⟨_, kernel_run m ρ, ?_⟩
  refine (θ_run (Cert.ReferenceIdeal.defs (F := Ideal)) _ _).mono (fun r h c => ⟨(h c).1.trans ?_, (h c).2⟩)
    (Cert.ReferenceIdeal.Value.run (F := Ideal) m' ρ')
  obtain ⟨h0, h1, h2, h3, h4, h5, h6, h7, h8⟩ := Cert.Attn.FiniteInputs.allReal_of_pre m hpre c
  obtain ⟨a0, a1, a2, a3, a4, a5, a6, a7, a8⟩ := hagree c
  rw [Cert.ReferenceIdeal.RefValue.ref_run_is_Gref m' c, a0, a1, a2, a3, a4, a5, a6, a7, a8]
  exact (Cert.Attn.Gker_eq_Gref _ _ _ _ _ _ _ _ _ h0 h1 h2 h3 h4 h5 h6 h7 h8).symm

end Cert.Proof.AttnClaims

end
-- ==== Proof.lean ====
/-
  Causal multi-head attention with four dense projections: the tiled kernel against the plain reference.
  Both compute, for an input [2, 2048, 1024], torch-Linear query, key and value projections, per head the softmax
  over the causally allowed keys of the scaled dot products, the weighted sum of the value rows, and an output
  projection. The kernel folds the scale 1/8 into the query projection, looks only at the keys up to the end of the
  query's 512-row tile, and divides by the softmax normaliser after summing; over real inputs these are the same
  function, which is the value claim. The modules: the specification (Spec), the algebra joining its two forms
  (AttnMath), the precondition read as "every entry is real" (FiniteInputs), the kernel's run and its three regions
  read as functions (KernelRun, Region0, Region1 with AttnTile / AttnPiece / AttnBody, Region2, KernelFold), the
  reference's run read as the plain form (RefIsG), and the claims (Claims).
-/
import proofs.«129124_j25151328485592_2_alg».proof.Defs
import proofs.«129124_j25151328485592_2_alg».proof.Proof.Gen.Kernel
import proofs.«129124_j25151328485592_2_alg».proof.Proof.Gen.KernelIdeal
import proofs.«129124_j25151328485592_2_alg».proof.Proof.Gen.ReferenceIdeal
import proofs.«129124_j25151328485592_2_alg».proof.Proof.Gen.ReferenceIdeal.Run
import proofs.«129124_j25151328485592_2_alg».proof.Proof.Gen.ReferenceIdeal.Read
import proofs.«129124_j25151328485592_2_alg».proof.Proof.Gen.Pre_finite_inputs
import proofs.«129124_j25151328485592_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_p, AttnClaims.frame_pi, AttnClaims.frame_ri, AttnClaims.preserves, AttnClaims.algebraic⟩

end Cert.Proof

end
